-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x68x256x256 : Shape := ⟨4, ![16, 68, 256, 256]⟩
abbrev S_ : Shape := ⟨0, ![]⟩

class Facts : Prop where
  bcast_S_S16x68x256x256 : S_.BroadcastsInDim S16x68x256x256 (![] : Fin 0 → Fin S16x68x256x256.rank)
  reducesTo_S16x68x256x256_S_d0_1_2_3 : S16x68x256x256.ReducesTo [0, 1, 2, 3] S_
  h_S_ : 0 < S_.numel

variable [Facts]

def fn {F : FTy → Type} [FloatOps F] (main_arg0 : FVec F S16x68x256x256 .f32) (main_arg1 : FVec F S16x68x256x256 .f32) : IVec S_ 1 :=
  let main_v0 : FVec F S16x68x256x256 .f32 := Host.absf main_arg0
  let main_cst : FVec F S_ .f32 := constant S_ .f32 0x7F800000#32
  let main_v1 : FVec F S16x68x256x256 .f32 := broadcastInDim S16x68x256x256 ![] bcast_S_S16x68x256x256 main_cst
  let main_v2 : IVec S16x68x256x256 1 := cmpf .olt main_v0 main_v1
  let main_c : IVec S_ 1 := constantI S_ 1 1#1
  let main_v3 : IVec S_ 1 := (fun x v => Host.reduce IntOp.andi x v reducesTo_S16x68x256x256_S_d0_1_2_3 h_S_) main_v2 main_c
  let main_v4 : FVec F S16x68x256x256 .f32 := Host.absf main_arg1
  let main_cst_0 : FVec F S_ .f32 := constant S_ .f32 0x7F800000#32
  let main_v5 : FVec F S16x68x256x256 .f32 := broadcastInDim S16x68x256x256 ![] bcast_S_S16x68x256x256 main_cst_0
  let main_v6 : IVec S16x68x256x256 1 := cmpf .olt main_v4 main_v5
  let main_c_1 : IVec S_ 1 := constantI S_ 1 1#1
  let main_v7 : IVec S_ 1 := (fun x v => Host.reduce IntOp.andi x v reducesTo_S16x68x256x256_S_d0_1_2_3 h_S_) main_v6 main_c_1
  let main_v8 : IVec S_ 1 := andi main_v3 main_v7
  main_v8
-- ==== Kernel.lean ====
abbrev S16x68x256x256 : Shape := ⟨4, ![16, 68, 256, 256]⟩
abbrev S16x8x128 : Shape := ⟨3, ![16, 8, 128]⟩
abbrev S1x17x256x256 : Shape := ⟨4, ![1, 17, 256, 256]⟩
abbrev S1x8x128 : Shape := ⟨3, ![1, 8, 128]⟩
abbrev S1x256x256 : Shape := ⟨3, ![1, 256, 256]⟩
abbrev S1x256x255 : Shape := ⟨3, ![1, 256, 255]⟩
abbrev S1x255x256 : Shape := ⟨3, ![1, 255, 256]⟩
abbrev S1x256 : Shape := ⟨2, ![1, 256]⟩
abbrev S1x256x1 : Shape := ⟨3, ![1, 256, 1]⟩
abbrev S1 : Shape := ⟨1, ![1]⟩
abbrev S1x255 : Shape := ⟨2, ![1, 255]⟩
abbrev S1x1x255 : Shape := ⟨3, ![1, 1, 255]⟩
abbrev S1x255x1 : Shape := ⟨3, ![1, 255, 1]⟩
abbrev S1x1x256 : Shape := ⟨3, ![1, 1, 256]⟩
abbrev S8x128 : Shape := ⟨2, ![8, 128]⟩
abbrev S1x1 : Shape := ⟨2, ![1, 1]⟩
abbrev S16x1x1 : Shape := ⟨3, ![16, 1, 1]⟩
abbrev S16 : Shape := ⟨1, ![16]⟩
abbrev S_ : Shape := ⟨0, ![]⟩

abbrev nBuf : Space → Nat
  | .hbm => 31
  | .vmem => 8
  | .smem => 0
  | _ => 0

abbrev bufTy : (tb : Table) → Fin (tcTables nBuf tb) → BufTy
  | .hbm, ⟨0, _⟩ => ⟨S16x68x256x256, .f32⟩
  | .hbm, ⟨1, _⟩ => ⟨S16x68x256x256, .f32⟩
  | .hbm, ⟨2, _⟩ => ⟨S16x8x128, .f32⟩
  | .hbm, ⟨3, _⟩ => ⟨S16x1x1, .f32⟩
  | .hbm, ⟨4, _⟩ => ⟨S16, .f32⟩
  | .hbm, ⟨5, _⟩ => ⟨S16x1x1, .f32⟩
  | .hbm, ⟨6, _⟩ => ⟨S16, .f32⟩
  | .hbm, ⟨7, _⟩ => ⟨S16x1x1, .f32⟩
  | .hbm, ⟨8, _⟩ => ⟨S16, .f32⟩
  | .hbm, ⟨9, _⟩ => ⟨S16x1x1, .f32⟩
  | .hbm, ⟨10, _⟩ => ⟨S16, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .local _ .vmem, ⟨0, _⟩ => ⟨S1x17x256x256, .f32⟩
  | .local _ .vmem, ⟨1, _⟩ => ⟨S1x17x256x256, .f32⟩
  | .local _ .vmem, ⟨2, _⟩ => ⟨S1x17x256x256, .f32⟩
  | .local _ .vmem, ⟨3, _⟩ => ⟨S1x17x256x256, .f32⟩
  | .local _ .vmem, ⟨4, _⟩ => ⟨S1x8x128, .f32⟩
  | .local _ .vmem, ⟨5, _⟩ => ⟨S1x8x128, .f32⟩
  | .local _ .vmem, ⟨6, _⟩ => ⟨S1x256x256, .f32⟩
  | .local _ .vmem, ⟨7, _⟩ => ⟨S1x256x256, .f32⟩
  | _, _ => ⟨S16x68x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_21 : BitVec 32 := 0#32
  let v19 : BitVec 1 := Scalar.cmpi .ne v18 c0_i32_21
  v19

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x17x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x17x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x256x256_S1x256x256_0_0_0 : ∀ a, (![0, 0, 0] : Fin 3 → Nat) a + S1x256x256.size a ≤ S1x256x256.size a
  h_S1x256x256 : 0 < S1x256x256.numel
  shapeCasts_S1x256x256_S1x256x256 : S1x256x256.ShapeCasts S1x256x256
  inb_S1x17x256x256_S1x17x256x256_0_0_0_0 : ∀ a, (![0, 0, 0, 0] : Fin 4 → Nat) a + S1x17x256x256.size a ≤ S1x17x256x256.size a
  h_S1x17x256x256 : 0 < S1x17x256x256.numel
  reduces_S1x17x256x256_S1x256x256 : S1x17x256x256.Reduces [1] S1x256x256
  slices_S1x256x256_o0_0_0_S1x256x255 : S1x256x256.Slices ![0, 0, 0] S1x256x255
  slices_S1x256x256_o0_0_1_S1x256x255 : S1x256x256.Slices ![0, 0, 1] S1x256x255
  slices_S1x256x256_o0_0_0_S1x255x256 : S1x256x256.Slices ![0, 0, 0] S1x255x256
  slices_S1x256x256_o0_1_0_S1x255x256 : S1x256x256.Slices ![0, 1, 0] S1x255x256
  reduces_S1x256x255_S1x256 : S1x256x255.Reduces [2] S1x256
  shapeCasts_S1x256_S1x256x1 : S1x256.ShapeCasts S1x256x1
  broadcasts_S1x256x1_S1x256x255 : S1x256x1.Broadcasts S1x256x255
  reduces_S1x256_S1 : S1x256.Reduces [1] S1
  reduces_S1x256x255_S1x255 : S1x256x255.Reduces [1] S1x255
  shapeCasts_S1x255_S1x1x255 : S1x255.ShapeCasts S1x1x255
  broadcasts_S1x1x255_S1x256x255 : S1x1x255.Broadcasts S1x256x255
  reduces_S1x255_S1 : S1x255.Reduces [1] S1
  reduces_S1x255x256_S1x255 : S1x255x256.Reduces [2] S1x255
  shapeCasts_S1x255_S1x255x1 : S1x255.ShapeCasts S1x255x1
  broadcasts_S1x255x1_S1x255x256 : S1x255x1.Broadcasts S1x255x256
  reduces_S1x255x256_S1x256 : S1x255x256.Reduces [1] S1x256
  shapeCasts_S1x256_S1x1x256 : S1x256.ShapeCasts S1x1x256
  broadcasts_S1x1x256_S1x255x256 : S1x1x256.Broadcasts S1x255x256
  iota_S8x128_d0_w32 : S8x128.Iotas .tc 32 [0]
  iota_S8x128_d1_w32 : S8x128.Iotas .tc 32 [1]
  shapeCasts_S1_S1x1 : S1.ShapeCasts S1x1
  broadcasts_S1x1_S8x128 : S1x1.Broadcasts S8x128
  shapeCasts_S8x128_S1x8x128 : S8x128.ShapeCasts S1x8x128
  inb_S1x8x128_S1x8x128_0_0_0 : ∀ a, (![0, 0, 0] : Fin 3 → Nat) a + S1x8x128.size a ≤ S1x8x128.size a
  h_S1x8x128 : 0 < S1x8x128.numel
  slices_S16x8x128_S16x1x1_0_0_0 : S16x8x128.Slices ![0, 0, 0] S16x1x1
  shapeCasts_S16x1x1_S16 : S16x1x1.ShapeCasts S16
  slices_S16x8x128_S16x1x1_0_0_1 : S16x8x128.Slices ![0, 0, 1] S16x1x1
  slices_S16x8x128_S16x1x1_0_0_2 : S16x8x128.Slices ![0, 0, 2] S16x1x1
  slices_S16x8x128_S16x1x1_0_0_3 : S16x8x128.Slices ![0, 0, 3] S16x1x1
  reducesTo_S16_S_d0 : S16.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x17x256x256.size a ≤ S16x68x256x256.size a
  hwx0_0 : ∀ i : grid0.Coords, EltTy.bits .f32 = 32 ∨ (Rect.block (s := S16x68x256x256) S1x17x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x17x256x256.size a ≤ S16x68x256x256.size a
  hwx0_1 : ∀ i : grid0.Coords, EltTy.bits .f32 = 32 ∨ (Rect.block (s := S16x68x256x256) S1x17x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S16x8x128.size a
  hwx0_2 : ∀ i : grid0.Coords, EltTy.bits .f32 = 32 ∨ (Rect.block (s := S16x8x128) S1x8x128.size (cc0_transform_2 i) (hinb0_2 i)).WholeWords (EltTy.packing .f32)

variable [Facts₀]

abbrev win0_0 : Pipeline.Window sig grid0 :=
  Pipeline.Window.ofSpec (Memref.whole main_arg0) S1x17x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x17x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16x68x256x256 : Shape := ⟨4, ![16, 68, 256, 256]⟩
abbrev S_ : Shape := ⟨0, ![]⟩
abbrev S16x256x256 : Shape := ⟨3, ![16, 256, 256]⟩
abbrev S16x256x255 : Shape := ⟨3, ![16, 256, 255]⟩
abbrev S16x255x256 : Shape := ⟨3, ![16, 255, 256]⟩
abbrev S16x256 : Shape := ⟨2, ![16, 256]⟩
abbrev S16x256x1 : Shape := ⟨3, ![16, 256, 1]⟩
abbrev S16 : Shape := ⟨1, ![16]⟩
abbrev S16x255 : Shape := ⟨2, ![16, 255]⟩
abbrev S16x1x255 : Shape := ⟨3, ![16, 1, 255]⟩
abbrev S16x255x1 : Shape := ⟨3, ![16, 255, 1]⟩
abbrev S16x1x256 : Shape := ⟨3, ![16, 1, 256]⟩

abbrev nBuf : Space → Nat
  | .hbm => 143
  | .vmem => 0
  | .smem => 0
  | _ => 0

abbrev hbmTy0_0 (i : Nat) : BufTy := match i % 128 with
  | 0 => ⟨S16x68x256x256, .f32⟩
  | 1 => ⟨S16x68x256x256, .f32⟩
  | 2 => ⟨S_, .f32⟩
  | 3 => ⟨S16x256x256, .f32⟩
  | 4 => ⟨S_, .f32⟩
  | 5 => ⟨S16x256x256, .f32⟩
  | 6 => ⟨S16x256x255, .f32⟩
  | 7 => ⟨S16x256x255, .f32⟩
  | 8 => ⟨S16x256x255, .f32⟩
  | 9 => ⟨S16x255x256, .f32⟩
  | 10 => ⟨S16x255x256, .f32⟩
  | 11 => ⟨S16x255x256, .f32⟩
  | 12 => ⟨S16x256x255, .f32⟩
  | 13 => ⟨S16x256x255, .f32⟩
  | 14 => ⟨S16x256x255, .f32⟩
  | 15 => ⟨S16x255x256, .f32⟩
  | 16 => ⟨S16x255x256, .f32⟩
  | 17 => ⟨S16x255x256, .f32⟩
  | 18 => ⟨S16x256x255, .f32⟩
  | 19 => ⟨S_, .f32⟩
  | 20 => ⟨S16x256, .f32⟩
  | 21 => ⟨S16x256x1, .f32⟩
  | 22 => ⟨S16x256x1, .f32⟩
  | 23 => ⟨S_, .f32⟩
  | 24 => ⟨S16x256x1, .f32⟩
  | 25 => ⟨S16x256x1, .f32⟩
  | 26 => ⟨S16x256x255, .f32⟩
  | 27 => ⟨S16x256x255, .f32⟩
  | 28 => ⟨S16x256x255, .f32⟩
  | 29 => ⟨S_, .f32⟩
  | 30 => ⟨S16x256, .f32⟩
  | 31 => ⟨S16x256x1, .f32⟩
  | 32 => ⟨S16x256x1, .f32⟩
  | 33 => ⟨S_, .f32⟩
  | 34 => ⟨S16x256x1, .f32⟩
  | 35 => ⟨S16x256x1, .f32⟩
  | 36 => ⟨S16x256x255, .f32⟩
  | 37 => ⟨S16x256x255, .f32⟩
  | 38 => ⟨S16x256x255, .f32⟩
  | 39 => ⟨S_, .f32⟩
  | 40 => ⟨S16, .f32⟩
  | 41 => ⟨S_, .f32⟩
  | 42 => ⟨S16, .f32⟩
  | 43 => ⟨S16, .f32⟩
  | 44 => ⟨S16x256x255, .f32⟩
  | 45 => ⟨S_, .f32⟩
  | 46 => ⟨S16x255, .f32⟩
  | 47 => ⟨S16x1x255, .f32⟩
  | 48 => ⟨S16x1x255, .f32⟩
  | 49 => ⟨S_, .f32⟩
  | 50 => ⟨S16x1x255, .f32⟩
  | 51 => ⟨S16x1x255, .f32⟩
  | 52 => ⟨S16x256x255, .f32⟩
  | 53 => ⟨S16x256x255, .f32⟩
  | 54 => ⟨S16x256x255, .f32⟩
  | 55 => ⟨S_, .f32⟩
  | 56 => ⟨S16x255, .f32⟩
  | 57 => ⟨S16x1x255, .f32⟩
  | 58 => ⟨S16x1x255, .f32⟩
  | 59 => ⟨S_, .f32⟩
  | 60 => ⟨S16x1x255, .f32⟩
  | 61 => ⟨S16x1x255, .f32⟩
  | 62 => ⟨S16x256x255, .f32⟩
  | 63 => ⟨S16x256x255, .f32⟩
  | 64 => ⟨S16x256x255, .f32⟩
  | 65 => ⟨S_, .f32⟩
  | 66 => ⟨S16, .f32⟩
  | 67 => ⟨S_, .f32⟩
  | 68 => ⟨S16, .f32⟩
  | 69 => ⟨S16, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S16x255x256, .f32⟩
  | 81 => ⟨S_, .f32⟩
  | 82 => ⟨S16x255, .f32⟩
  | 83 => ⟨S16x255x1, .f32⟩
  | 84 => ⟨S16x255x1, .f32⟩
  | 85 => ⟨S_, .f32⟩
  | 86 => ⟨S16x255x1, .f32⟩
  | 87 => ⟨S16x255x1, .f32⟩
  | 88 => ⟨S16x255x256, .f32⟩
  | 89 => ⟨S16x255x256, .f32⟩
  | 90 => ⟨S16x255x256, .f32⟩
  | 91 => ⟨S_, .f32⟩
  | 92 => ⟨S16x255, .f32⟩
  | 93 => ⟨S16x255x1, .f32⟩
  | 94 => ⟨S16x255x1, .f32⟩
  | 95 => ⟨S_, .f32⟩
  | 96 => ⟨S16x255x1, .f32⟩
  | 97 => ⟨S16x255x1, .f32⟩
  | 98 => ⟨S16x255x256, .f32⟩
  | 99 => ⟨S16x255x256, .f32⟩
  | 100 => ⟨S16x255x256, .f32⟩
  | 101 => ⟨S_, .f32⟩
  | 102 => ⟨S16, .f32⟩
  | 103 => ⟨S_, .f32⟩
  | 104 => ⟨S16, .f32⟩
  | 105 => ⟨S16, .f32⟩
  | 106 => ⟨S16x255x256, .f32⟩
  | 107 => ⟨S_, .f32⟩
  | 108 => ⟨S16x256, .f32⟩
  | 109 => ⟨S16x1x256, .f32⟩
  | 110 => ⟨S16x1x256, .f32⟩
  | 111 => ⟨S_, .f32⟩
  | 112 => ⟨S16x1x256, .f32⟩
  | 113 => ⟨S16x1x256, .f32⟩
  | 114 => ⟨S16x255x256, .f32⟩
  | 115 => ⟨S16x255x256, .f32⟩
  | 116 => ⟨S16x255x256, .f32⟩
  | 117 => ⟨S_, .f32⟩
  | 118 => ⟨S16x256, .f32⟩
  | 119 => ⟨S16x1x256, .f32⟩
  | 120 => ⟨S16x1x256, .f32⟩
  | 121 => ⟨S_, .f32⟩
  | 122 => ⟨S16x1x256, .f32⟩
  | 123 => ⟨S16x1x256, .f32⟩
  | 124 => ⟨S16x255x256, .f32⟩
  | 125 => ⟨S16x255x256, .f32⟩
  | 126 => ⟨S16x255x256, .f32⟩
  | 127 => ⟨S_, .f32⟩
  | _ => ⟨S16x68x256x256, .f32⟩

abbrev hbmTy0_1 (i : Nat) : BufTy := match i % 128 with
  | 0 => ⟨S16, .f32⟩
  | 1 => ⟨S_, .f32⟩
  | 2 => ⟨S16, .f32⟩
  | 3 => ⟨S16, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | _ => ⟨S16x68x256x256, .f32⟩

abbrev hbmTy (i : Nat) : BufTy := match i / 128 with
  | 0 => hbmTy0_0 i
  | 1 => hbmTy0_1 i
  | _ => ⟨S16x68x256x256, .f32⟩

abbrev bufTy : (tb : Table) → Fin (tcTables nBuf tb) → BufTy
  | .hbm, ⟨i, _⟩ => hbmTy i
  | _, _ => ⟨S16x68x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_3 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_4 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_5 : Ref sig .tc := ⟨.hbm, 39, rfl⟩
abbrev main_v31 : Ref sig .tc := ⟨.hbm, 40, rfl⟩
abbrev main_cst_6 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_7 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_8 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_9 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_10 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_11 : Ref sig .tc := ⟨.hbm, 65, rfl⟩
abbrev main_v51 : Ref sig .tc := ⟨.hbm, 66, rfl⟩
abbrev main_cst_12 : Ref sig .tc := ⟨.hbm, 67, rfl⟩
abbrev main_v52 : Ref sig .tc := ⟨.hbm, 68, rfl⟩
abbrev main_v53 : Ref sig .tc := ⟨.hbm, 69, rfl⟩
abbrev main_cst_13 : Ref sig .tc := ⟨.hbm, 70, rfl⟩
abbrev main_v54 : Ref sig .tc := ⟨.hbm, 71, rfl⟩
abbrev main_cst_14 : Ref sig .tc := ⟨.hbm, 72, rfl⟩
abbrev main_v55 : Ref sig .tc := ⟨.hbm, 73, rfl⟩
abbrev main_v56 : Ref sig .tc := ⟨.hbm, 74, rfl⟩
abbrev main_cst_15 : Ref sig .tc := ⟨.hbm, 75, rfl⟩
abbrev main_v57 : Ref sig .tc := ⟨.hbm, 76, rfl⟩
abbrev main_cst_16 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_17 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_18 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_19 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_20 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_cst_21 : Ref sig .tc := ⟨.hbm, 101, rfl⟩
abbrev main_v77 : Ref sig .tc := ⟨.hbm, 102, rfl⟩
abbrev main_cst_22 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_cst_23 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_24 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_cst_25 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_cst_26 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_cst_27 : Ref sig .tc := ⟨.hbm, 127, rfl⟩
abbrev main_v97 : Ref sig .tc := ⟨.hbm, 128, rfl⟩
abbrev main_cst_28 : Ref sig .tc := ⟨.hbm, 129, rfl⟩
abbrev main_v98 : Ref sig .tc := ⟨.hbm, 130, rfl⟩
abbrev main_v99 : Ref sig .tc := ⟨.hbm, 131, rfl⟩
abbrev main_cst_29 : Ref sig .tc := ⟨.hbm, 132, rfl⟩
abbrev main_v100 : Ref sig .tc := ⟨.hbm, 133, rfl⟩
abbrev main_cst_30 : Ref sig .tc := ⟨.hbm, 134, rfl⟩
abbrev main_v101 : Ref sig .tc := ⟨.hbm, 135, rfl⟩
abbrev main_v102 : Ref sig .tc := ⟨.hbm, 136, rfl⟩
abbrev main_cst_31 : Ref sig .tc := ⟨.hbm, 137, rfl⟩
abbrev main_v103 : Ref sig .tc := ⟨.hbm, 138, rfl⟩
abbrev main_cst_32 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩

abbrev nD : Nat := 1
abbrev τ : Topo := Topo.v7x

variable {F : FTy → Type} [FloatOps F]

class Facts₀ : Prop where
  reducesTo_S16x68x256x256_S16x256x256_d1 : S16x68x256x256.ReducesTo [1] S16x256x256
  h_S_ : 0 < S_.numel
  slices_S16x256x256_S16x256x255_0_0_0 : S16x256x256.Slices ![0, 0, 0] S16x256x255
  slices_S16x256x256_S16x256x255_0_0_1 : S16x256x256.Slices ![0, 0, 1] S16x256x255
  slices_S16x256x256_S16x255x256_0_0_0 : S16x256x256.Slices ![0, 0, 0] S16x255x256
  slices_S16x256x256_S16x255x256_0_1_0 : S16x256x256.Slices ![0, 1, 0] S16x255x256
  reducesTo_S16x256x255_S16x256_d2 : S16x256x255.ReducesTo [2] S16x256
  bcast_S16x256_S16x256x1_0_1 : S16x256.BroadcastsInDim S16x256x1 (![0, 1] : Fin 2 → Fin S16x256x1.rank)
  bcast_S_S16x256x1 : S_.BroadcastsInDim S16x256x1 (![] : Fin 0 → Fin S16x256x1.rank)
  bcast_S16x256x1_S16x256x255_0_1_2 : S16x256x1.BroadcastsInDim S16x256x255 (![0, 1, 2] : Fin 3 → Fin S16x256x255.rank)
  reducesTo_S16x256x255_S16_d1_2 : S16x256x255.ReducesTo [1, 2] S16
  bcast_S_S16 : S_.BroadcastsInDim S16 (![] : Fin 0 → Fin S16.rank)
  reducesTo_S16x256x255_S16x255_d1 : S16x256x255.ReducesTo [1] S16x255
  bcast_S16x255_S16x1x255_0_2 : S16x255.BroadcastsInDim S16x1x255 (![0, 2] : Fin 2 → Fin S16x1x255.rank)
  bcast_S_S16x1x255 : S_.BroadcastsInDim S16x1x255 (![] : Fin 0 → Fin S16x1x255.rank)
  bcast_S16x1x255_S16x256x255_0_1_2 : S16x1x255.BroadcastsInDim S16x256x255 (![0, 1, 2] : Fin 3 → Fin S16x256x255.rank)
  reducesTo_S16_S_d0 : S16.ReducesTo [0] S_
  reducesTo_S16x255x256_S16x255_d2 : S16x255x256.ReducesTo [2] S16x255
  bcast_S16x255_S16x255x1_0_1 : S16x255.BroadcastsInDim S16x255x1 (![0, 1] : Fin 2 → Fin S16x255x1.rank)
  bcast_S_S16x255x1 : S_.BroadcastsInDim S16x255x1 (![] : Fin 0 → Fin S16x255x1.rank)
  bcast_S16x255x1_S16x255x256_0_1_2 : S16x255x1.BroadcastsInDim S16x255x256 (![0, 1, 2] : Fin 3 → Fin S16x255x256.rank)
  reducesTo_S16x255x256_S16_d1_2 : S16x255x256.ReducesTo [1, 2] S16
  reducesTo_S16x255x256_S16x256_d1 : S16x255x256.ReducesTo [1] S16x256
  bcast_S16x256_S16x1x256_0_2 : S16x256.BroadcastsInDim S16x1x256 (![0, 2] : Fin 2 → Fin S16x1x256.rank)
  bcast_S_S16x1x256 : S_.BroadcastsInDim S16x1x256 (![] : Fin 0 → Fin S16x1x256.rank)
  bcast_S16x1x256_S16x255x256_0_1_2 : S16x1x256.BroadcastsInDim S16x255x256 (![0, 1, 2] : Fin 3 → Fin S16x255x256.rank)

variable [Facts₀]

class Facts : Prop extends Facts₀ where

variable [Facts]
-- ==== Proof.KernelPieces.lean ====
/- What each kind of grid point leaves in the two accumulator planes and in the output tile, as pure functions of what the
   point finds: at the first point of a batch the cleared plane plus the first block's channel sum; at every later point the
   plane found plus that block's channel sum; at the last point also the tile computed from the two planes just completed.
   Stated for any reading of the floats. -/
import proofs.«138720_j10213432230328_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The finalize step's tile as ONE function of the two accumulated planes P and G (the body's pure arithmetic,
    from the plane differences to the four numbers placed in lanes 0..3 of row 0). -/
def tileOf (P G : Vec F S1x256x256 .f32) : Vec F S1x8x128 .f32 :=
  k0_pay5
    (k0_pay17 (k0_pay10 P G) (k0_pay13 (k0_pay8 G) (k0_pay11 P) (k0_pay12 G)) (k0_pay14 (k0_pay7 P) (k0_pay9 G)))
    k0_pay18
    (k0_pay19 (k0_pay9 G) (k0_pay15 (k0_pay7 P)) (k0_pay16 (k0_pay9 G)) (Scalar.ofBits .f32 0x2B8CBCCC#32))

/-! ## First point of a batch: the accumulators are cleared, then the first channel block is added -/

theorem sout_A_0 (c : Dev nD) (i : grid0.Coords) (arg2 : Memref sig .tc .vmem S1x17x256x256 .f32) (harg2 : arg2.IsWhole) (arg3 : Memref sig .tc .vmem S1x17x256x256 .f32) (harg3 : arg3.IsWhole) (arg4 : Memref sig .tc .vmem S1x8x128 .f32) (harg4 : arg4.IsWhole) (arg5 : Memref sig .tc .vmem S1x256x256 .f32) (harg5 : arg5.IsWhole) (arg6 : Memref sig .tc .vmem S1x256x256 .f32) (harg6 : arg6.IsWhole) (hc0 : cond0_0 i) (hc1 : ¬cond0_1 i) (x0 x1 : Vec F S1x17x256x256 .f32) :
    sout0_A_0 c i arg2 harg2 arg3 harg3 arg4 harg4 arg5 harg5 arg6 harg6 hc0 hc1 x0 x1 = k0_pay3 k0_pay1 x0 := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S1x256x256) hz3, View.readCov_unit_zero (S := S1x256x256) _ hz3]
  simp only [View.readAt_eq_ld, harg2.read_unread, View.ld_unit_zero (S := S1x17x256x256) hz4]

theorem sout_A_1 (c : Dev nD) (i : grid0.Coords) (arg2 : Memref sig .tc .vmem S1x17x256x256 .f32) (harg2 : arg2.IsWhole) (arg3 : Memref sig .tc .vmem S1x17x256x256 .f32) (harg3 : arg3.IsWhole) (arg4 : Memref sig .tc .vmem S1x8x128 .f32) (harg4 : arg4.IsWhole) (arg5 : Memref sig .tc .vmem S1x256x256 .f32) (harg5 : arg5.IsWhole) (arg6 : Memref sig .tc .vmem S1x256x256 .f32) (harg6 : arg6.IsWhole) (hc0 : cond0_0 i) (hc1 : ¬cond0_1 i) (x0 x1 : Vec F S1x17x256x256 .f32) :
    sout0_A_1 c i arg2 harg2 arg3 harg3 arg4 harg4 arg5 harg5 arg6 harg6 hc0 hc1 x0 x1 = k0_pay4 k0_pay2 x1 := by
  unfold sout0_A_1
  rw [View.read_writes_eq_canon _ _ _ (scover0_A_1 c i arg2 harg2 arg3 harg3 arg4 harg4 arg5 harg5 arg6 harg6 hc0 hc1 x0 x1)]
  unfold kernelRun0_A
  dsimp only
  sl_unfold_words
  rw [View.canon_cons_unit_zero (S := S1x256x256) hz3, View.readCov_unit_zero (S := S1x256x256) _ hz3]
  simp only [View.readAt_eq_ld, harg3.read_unread, View.ld_unit_zero (S := S1x17x256x256) hz4]

/-! ## Middle points: one more channel block is added -/

theorem sout_B_0 (c : Dev nD) (i : grid0.Coords) (arg2 : Memref sig .tc .vmem S1x17x256x256 .f32) (harg2 : arg2.IsWhole) (arg3 : Memref sig .tc .vmem S1x17x256x256 .f32) (harg3 : arg3.IsWhole) (arg4 : Memref sig .tc .vmem S1x8x128 .f32) (harg4 : arg4.IsWhole) (arg5 : Memref sig .tc .vmem S1x256x256 .f32) (harg5 : arg5.IsWhole) (arg6 : Memref sig .tc .vmem S1x256x256 .f32) (harg6 : arg6.IsWhole) (hc0 : ¬cond0_0 i) (hc1 : ¬cond0_1 i)
    (x0 x1 : Vec F S1x17x256x256 .f32) (xs0 xs1 : Vec F S1x256x256 .f32) :
    sout0_B_0 c i arg2 harg2 arg3 harg3 arg4 harg4 arg5 harg5 arg6 harg6 hc0 hc1 x0 x1 xs0 xs1 = k0_pay3 xs0 x0 := by
  unfold sout0_B_0
  rw [View.read_writes_eq_canon _ _ _ (scover0_B_0 c i arg2 harg2 arg3 harg3 arg4 harg4 arg5 harg5 arg6 harg6 hc0 hc1 x0 x1 xs0 xs1)]
  unfold kernelRun0_B
  dsimp only
  sl_unfold_words
  rw [View.canon_unit_zero hz3]
  simp only [View.readAt_eq_ld, harg2.read_unread, harg5.read_unread, View.ld_unit_zero (S := S1x256x256) hz3,
    View.ld_unit_zero (S := S1x17x256x256) hz4]

theorem sout_B_1 (c : Dev nD) (i : grid0.Coords) (arg2 : Memref sig .tc .vmem S1x17x256x256 .f32) (harg2 : arg2.IsWhole) (arg3 : Memref sig .tc .vmem S1x17x256x256 .f32) (harg3 : arg3.IsWhole) (arg4 : Memref sig .tc .vmem S1x8x128 .f32) (harg4 : arg4.IsWhole) (arg5 : Memref sig .tc .vmem S1x256x256 .f32) (harg5 : arg5.IsWhole) (arg6 : Memref sig .tc .vmem S1x256x256 .f32) (harg6 : arg6.IsWhole) (hc0 : ¬cond0_0 i) (hc1 : ¬cond0_1 i)
    (x0 x1 : Vec F S1x17x256x256 .f32) (xs0 xs1 : Vec F S1x256x256 .f32) :
    sout0_B_1 c i arg2 harg2 arg3 harg3 arg4 harg4 arg5 harg5 arg6 harg6 hc0 hc1 x0 x1 xs0 xs1 = k0_pay4 xs1 x1 := by
  unfold sout0_B_1
  rw [View.read_writes_eq_canon _ _ _ (scover0_B_1 c i arg2 harg2 arg3 harg3 arg4 harg4 arg5 harg5 arg6 harg6 hc0 hc1 x0 x1 xs0 xs1)]
  unfold kernelRun0_B
  dsimp only
  sl_unfold_words
  rw [View.canon_unit_zero hz3]
  simp only [View.readAt_eq_ld, harg3.read_unread, harg6.read_unread, View.ld_unit_zero (S := S1x256x256) hz3,
    View.ld_unit_zero (S := S1x17x256x256) hz4]

/-! ## Last point of a batch: the last channel block is added and the tile is computed from the accumulators -/

theorem sout_C_0 (c : Dev nD) (i : grid0.Coords) (arg2 : Memref sig .tc .vmem S1x17x256x256 .f32) (harg2 : arg2.IsWhole) (arg3 : Memref sig .tc .vmem S1x17x256x256 .f32) (harg3 : arg3.IsWhole) (arg4 : Memref sig .tc .vmem S1x8x128 .f32) (harg4 : arg4.IsWhole) (arg5 : Memref sig .tc .vmem S1x256x256 .f32) (harg5 : arg5.IsWhole) (arg6 : Memref sig .tc .vmem S1x256x256 .f32) (harg6 : arg6.IsWhole) (hc0 : ¬cond0_0 i) (hc1 : cond0_1 i)
    (x0 x1 : Vec F S1x17x256x256 .f32) (xs0 xs1 : Vec F S1x256x256 .f32) :
    sout0_C_0 c i arg2 harg2 arg3 harg3 arg4 harg4 arg5 harg5 arg6 harg6 hc0 hc1 x0 x1 xs0 xs1 = k0_pay3 xs0 x0 := by
  unfold sout0_C_0
  rw [View.read_writes_eq_canon _ _ _ (scover0_C_0 c i arg2 harg2 arg3 harg3 arg4 harg4 arg5 harg5 arg6 harg6 hc0 hc1 x0 x1 xs0 xs1)]
  unfold kernelRun0_C
  dsimp only
  sl_unfold_words
  rw [View.canon_unit_zero hz3]
  simp only [View.readAt_eq_ld, harg2.read_unread, harg5.read_unread, View.ld_unit_zero (S := S1x256x256) hz3,
    View.ld_unit_zero (S := S1x17x256x256) hz4]

theorem sout_C_1 (c : Dev nD) (i : grid0.Coords) (arg2 : Memref sig .tc .vmem S1x17x256x256 .f32) (harg2 : arg2.IsWhole) (arg3 : Memref sig .tc .vmem S1x17x256x256 .f32) (harg3 : arg3.IsWhole) (arg4 : Memref sig .tc .vmem S1x8x128 .f32) (harg4 : arg4.IsWhole) (arg5 : Memref sig .tc .vmem S1x256x256 .f32) (harg5 : arg5.IsWhole) (arg6 : Memref sig .tc .vmem S1x256x256 .f32) (harg6 : arg6.IsWhole) (hc0 : ¬cond0_0 i) (hc1 : cond0_1 i)
    (x0 x1 : Vec F S1x17x256x256 .f32) (xs0 xs1 : Vec F S1x256x256 .f32) :
    sout0_C_1 c i arg2 harg2 arg3 harg3 arg4 harg4 arg5 harg5 arg6 harg6 hc0 hc1 x0 x1 xs0 xs1 = k0_pay4 xs1 x1 := by
  unfold sout0_C_1
  rw [View.read_writes_eq_canon _ _ _ (scover0_C_1 c i arg2 harg2 arg3 harg3 arg4 harg4 arg5 harg5 arg6 harg6 hc0 hc1 x0 x1 xs0 xs1)]
  unfold kernelRun0_C
  dsimp only
  sl_unfold_words
  rw [View.canon_unit_zero hz3]
  simp only [View.readAt_eq_ld, harg3.read_unread, harg6.read_unread, View.ld_unit_zero (S := S1x256x256) hz3,
    View.ld_unit_zero (S := S1x17x256x256) hz4]

theorem out_C_2 (c : Dev nD) (i : grid0.Coords) (arg2 : Memref sig .tc .vmem S1x17x256x256 .f32) (harg2 : arg2.IsWhole) (arg3 : Memref sig .tc .vmem S1x17x256x256 .f32) (harg3 : arg3.IsWhole) (arg4 : Memref sig .tc .vmem S1x8x128 .f32) (harg4 : arg4.IsWhole) (arg5 : Memref sig .tc .vmem S1x256x256 .f32) (harg5 : arg5.IsWhole) (arg6 : Memref sig .tc .vmem S1x256x256 .f32) (harg6 : arg6.IsWhole) (hc0 : ¬cond0_0 i) (hc1 : cond0_1 i)
    (x0 x1 : Vec F S1x17x256x256 .f32) (xs0 xs1 : Vec F S1x256x256 .f32) :
    out0_C_2 c i arg2 harg2 arg3 harg3 arg4 harg4 arg5 harg5 arg6 harg6 hc0 hc1 x0 x1 xs0 xs1 = tileOf (k0_pay3 xs0 x0) (k0_pay4 xs1 x1) := by
  unfold out0_C_2
  rw [View.read_writes_eq_canon _ _ _ (cover0_C_2 c i arg2 harg2 arg3 harg3 arg4 harg4 arg5 harg5 arg6 harg6 hc0 hc1 x0 x1 xs0 xs1)]
  unfold kernelRun0_C
  dsimp only
  sl_unfold_words
  rw [View.canon_unit_zero hz3]
  simp only [View.readCov_unit_zero (S := S1x256x256) _ hz3, View.readAt_eq_ld, harg2.read_unread, harg3.read_unread,
    harg5.read_unread, harg6.read_unread, View.ld_unit_zero (S := S1x256x256) hz3,
    View.ld_unit_zero (S := S1x17x256x256) hz4]
  rfl

end Cert.KernelIdeal.Pieces
end
-- ==== Proof.LibBatchReads.lean ====
/- Arrays [B, n, m] whose leading axis is a batch, read at an index (b, i, j) over the extended reals, any extents:
   the vector-unit sum along the last axis at (b, i) is the plain sum over j, along the middle axis at (b, j) the plain sum
   over i; the sum along axis 1 of a four-axis array [B, C, n, m] at (b, i, j) is the plain sum over the C planes; the host's
   sum over BOTH trailing axes into [B] at b is the initial value plus the double sum over (i, j); a [B, n] array cast to a
   column block [B, n, 1] and a [B, m] array cast to a row block [B, 1, m], and either block repeated to [B, n, m]; a window
   of [B, n, m] shifted along the last or the middle axis; and the host's forms of the single-axis sums and of the blocks.
   Names no program. -/
import Idealize.ShloMosaic.PureOps.Ideal
import Idealize.ShloMosaic.PureOps.Ideal.Laws
import Idealize.ShloMosaic.Lib.Pipeline.Value
import Idealize.ShloMosaic.Lib.ValueIdx
import Mathlib.Algebra.BigOperators.Fin

noncomputable section

namespace Cert.LibBatchReads

open Idealize.ShloMosaic Idealize.ShloMosaic.ValueIdx

variable {B n m : ℕ}

/-! ## Sums along one axis -/

/-- Result index (b, i) of a reduction along the last axis, with the dropped coordinate k put back, is (b, i, k). -/
theorem lift_last (h : (⟨3, ![B, n, m]⟩ : Shape).Reduces [(2 : Fin 3)] ⟨2, ![B, n]⟩) (b : Fin B) (i : Fin n) (k : Fin m) :
    h.lift (ix2 b i) k = ix3 b i k := by
  funext c
  apply Fin.ext
  match c with
  | ⟨0, _⟩ => rfl
  | ⟨1, _⟩ => rfl
  | ⟨2, _⟩ => rfl

/-- The sum along the last axis, at (b, i). -/
theorem sumLast_apply {φ : FTy} (src : FVec Ideal ⟨3, ![B, n, m]⟩ φ) (acc : BitVec φ.bits)
    (h : (⟨3, ![B, n, m]⟩ : Shape).Reduces [(2 : Fin 3)] ⟨2, ![B, n]⟩) (hφ : FKind.Formats φ)
    (hacc : acc = FKind.add.neutral φ hφ) (b : Fin B) (i : Fin n) :
    multiReduction .add [(2 : Fin 3)] ⟨2, ![B, n]⟩ src acc h hφ hacc (ix2 b i) = ∑ k : Fin m, src (ix3 b i k) :=
  (Ideal.multiReduction_add_single src acc h hφ hacc (ix2 b i)).trans
    (Finset.sum_congr rfl fun k _ => congrArg src (lift_last h b i k))

/-- Result index (b, j) of a reduction along the middle axis, with the dropped coordinate k put back, is (b, k, j). -/
theorem lift_mid (h : (⟨3, ![B, n, m]⟩ : Shape).Reduces [(1 : Fin 3)] ⟨2, ![B, m]⟩) (b : Fin B) (j : Fin m) (k : Fin n) :
    h.lift (ix2 b j) k = ix3 b k j := by
  funext c
  apply Fin.ext
  match c with
  | ⟨0, _⟩ => rfl
  | ⟨1, _⟩ => rfl
  | ⟨2, _⟩ => rfl

/-- The sum along the middle axis, at (b, j). -/
theorem sumMid_apply {φ : FTy} (src : FVec Ideal ⟨3, ![B, n, m]⟩ φ) (acc : BitVec φ.bits)
    (h : (⟨3, ![B, n, m]⟩ : Shape).Reduces [(1 : Fin 3)] ⟨2, ![B, m]⟩) (hφ : FKind.Formats φ)
    (hacc : acc = FKind.add.neutral φ hφ) (b : Fin B) (j : Fin m) :
    multiReduction .add [(1 : Fin 3)] ⟨2, ![B, m]⟩ src acc h hφ hacc (ix2 b j) = ∑ k : Fin n, src (ix3 b k j) :=
  (Ideal.multiReduction_add_single src acc h hφ hacc (ix2 b j)).trans
    (Finset.sum_congr rfl fun k _ => congrArg src (lift_mid h b j k))

variable {C : ℕ}

/-- Result index (b, i, j) of a reduction of [B, C, n, m] along axis 1, with the dropped coordinate k put back, is
    (b, k, i, j). -/
theorem lift_planes (h : (⟨4, ![B, C, n, m]⟩ : Shape).Reduces [(1 : Fin 4)] ⟨3, ![B, n, m]⟩) (b : Fin B) (i : Fin n)
    (j : Fin m) (k : Fin C) : h.lift (ix3 b i j) k = ix4 b k i j := by
  funext c
  apply Fin.ext
  match c with
  | ⟨0, _⟩ => rfl
  | ⟨1, _⟩ => rfl
  | ⟨2, _⟩ => rfl
  | ⟨3, _⟩ => rfl

/-- The sum over the C planes, at (b, i, j). -/
theorem sumPlanes_apply {φ : FTy} (src : FVec Ideal ⟨4, ![B, C, n, m]⟩ φ) (acc : BitVec φ.bits)
    (h : (⟨4, ![B, C, n, m]⟩ : Shape).Reduces [(1 : Fin 4)] ⟨3, ![B, n, m]⟩) (hφ : FKind.Formats φ)
    (hacc : acc = FKind.add.neutral φ hφ) (b : Fin B) (i : Fin n) (j : Fin m) :
    multiReduction .add [(1 : Fin 4)] ⟨3, ![B, n, m]⟩ src acc h hφ hacc (ix3 b i j) = ∑ k : Fin C, src (ix4 b k i j) :=
  (Ideal.multiReduction_add_single src acc h hφ hacc (ix3 b i j)).trans
    (Finset.sum_congr rfl fun k _ => congrArg src (lift_planes h b i j k))

/-! ## The host's sum over both trailing axes -/

/-- The host's sum of [B, n, m] over axes 1 and 2 into [B], at b: the initial value plus the double sum over (i, j). -/
theorem hostSumTrailing_apply (h : (⟨3, ![B, n, m]⟩ : Shape).ReducesTo [(1 : Fin 3), (2 : Fin 3)] ⟨1, ![B]⟩)
    (x : (⟨3, ![B, n, m]⟩ : Shape).Idx → EReal) (init : EReal) (b : Fin B) :
    Ideal.hostReduceAdd h x init (ix1 b) = init + ∑ i : Fin n, ∑ j : Fin m, x (ix3 b i j) := by
  unfold Ideal.hostReduceAdd
  refine congrArg (init + ·) ?_
  rw [← Finset.sum_product' (Finset.univ : Finset (Fin n)) (Finset.univ : Finset (Fin m)) (fun i j => x (ix3 b i j))]
  refine Finset.sum_nbij' (fun i => ((i 1 : Fin n), (i 2 : Fin m))) (fun pq => ix3 b pq.1 pq.2) ?_ ?_ ?_ ?_ ?_
  · intro i _; exact Finset.mem_product.2 ⟨Finset.mem_univ _, Finset.mem_univ _⟩
  · intro pq _
    refine Finset.mem_filter.2 ⟨Finset.mem_univ _, ?_⟩
    funext c
    apply Fin.ext
    match c with
    | ⟨0, _⟩ => rfl
  · intro i hi
    have hj := (Finset.mem_filter.1 hi).2
    have h0 : (i 0).val = b.val := congrArg (fun (f : (⟨1, ![B]⟩ : Shape).Idx) => (f 0).val) hj
    funext c
    apply Fin.ext
    match c with
    | ⟨0, _⟩ => exact h0.symm
    | ⟨1, _⟩ => rfl
    | ⟨2, _⟩ => rfl
  · intro pq _; rfl
  · intro i hi
    have hj := (Finset.mem_filter.1 hi).2
    have h0 : (i 0).val = b.val := congrArg (fun (f : (⟨1, ![B]⟩ : Shape).Idx) => (f 0).val) hj
    refine congrArg x ?_
    funext c
    apply Fin.ext
    match c with
    | ⟨0, _⟩ => exact h0
    | ⟨1, _⟩ => rfl
    | ⟨2, _⟩ => rfl

/-- The host's sum of [B, n, m] along the last axis, at (b, i): the initial value plus the plain sum over j. -/
theorem hostSumLast_apply (x : (⟨3, ![B, n, m]⟩ : Shape).Idx → EReal) (init : EReal)
    (h : (⟨3, ![B, n, m]⟩ : Shape).ReducesTo [(2 : Fin 3)] ⟨2, ![B, n]⟩) (b : Fin B) (i : Fin n) :
    Ideal.hostReduceAdd h x init (ix2 b i) = init + ∑ k : Fin m, x (ix3 b i k) := by
  have h' : (⟨3, ![B, n, m]⟩ : Shape).Reduces [(2 : Fin 3)] ⟨2, ![B, n]⟩ :=
    h.elim fun hr hs => ⟨hr, (by decide : 0 < 2), hs⟩
  rw [Ideal.hostReduceAdd_single h h']
  exact congrArg (init + ·) (Finset.sum_congr rfl fun k _ => congrArg x (lift_last h' b i k))

/-- The host's sum of [B, n, m] along the middle axis, at (b, j): the initial value plus the plain sum over i. -/
theorem hostSumMid_apply (x : (⟨3, ![B, n, m]⟩ : Shape).Idx → EReal) (init : EReal)
    (h : (⟨3, ![B, n, m]⟩ : Shape).ReducesTo [(1 : Fin 3)] ⟨2, ![B, m]⟩) (b : Fin B) (j : Fin m) :
    Ideal.hostReduceAdd h x init (ix2 b j) = init + ∑ k : Fin n, x (ix3 b k j) := by
  have h' : (⟨3, ![B, n, m]⟩ : Shape).Reduces [(1 : Fin 3)] ⟨2, ![B, m]⟩ :=
    h.elim fun hr hs => ⟨hr, (by decide : 0 < 2), hs⟩
  rw [Ideal.hostReduceAdd_single h h']
  exact congrArg (init + ·) (Finset.sum_congr rfl fun k _ => congrArg x (lift_mid h' b j k))

/-- The host's sum of [B, C, n, m] over the C planes, at (b, i, j): the initial value plus the plain sum over the planes. -/
theorem hostSumPlanes_apply (x : (⟨4, ![B, C, n, m]⟩ : Shape).Idx → EReal) (init : EReal)
    (h : (⟨4, ![B, C, n, m]⟩ : Shape).ReducesTo [(1 : Fin 4)] ⟨3, ![B, n, m]⟩) (b : Fin B) (i : Fin n) (j : Fin m) :
    Ideal.hostReduceAdd h x init (ix3 b i j) = init + ∑ k : Fin C, x (ix4 b k i j) := by
  have h' : (⟨4, ![B, C, n, m]⟩ : Shape).Reduces [(1 : Fin 4)] ⟨3, ![B, n, m]⟩ :=
    h.elim fun hr hs => ⟨hr, (by decide : 0 < 3), hs⟩
  rw [Ideal.hostReduceAdd_single h h']
  exact congrArg (init + ·) (Finset.sum_congr rfl fun k _ => congrArg x (lift_planes h' b i j k))

/-! ## Column blocks and row blocks -/

variable {α : Type}

/-- A [B, n] array cast to the column block [B, n, 1] reads, at (b, i, u), its entry (b, i). -/
theorem castCol_apply (v : (⟨2, ![B, n]⟩ : Shape).Idx → α) (h : (⟨2, ![B, n]⟩ : Shape).ShapeCasts ⟨3, ![B, n, 1]⟩)
    (b : Fin B) (i : Fin n) (u : Fin 1) : shapeCast ⟨3, ![B, n, 1]⟩ v h (ix3 b i u) = v (ix2 b i) :=
  shapeCast_apply v h _ _ (by
    have hu : u.val = 0 := by omega
    rw [Shape.rowMajor_val_two, Shape.rowMajor_val_three]
    show b.val * n + i.val = (b.val * n + i.val) * 1 + u.val
    rw [hu]; omega)

/-- A [B, m] array cast to the row block [B, 1, m] reads, at (b, u, j), its entry (b, j). -/
theorem castRow_apply (v : (⟨2, ![B, m]⟩ : Shape).Idx → α) (h : (⟨2, ![B, m]⟩ : Shape).ShapeCasts ⟨3, ![B, 1, m]⟩)
    (b : Fin B) (u : Fin 1) (j : Fin m) : shapeCast ⟨3, ![B, 1, m]⟩ v h (ix3 b u j) = v (ix2 b j) :=
  shapeCast_apply v h _ _ (by
    have hu : u.val = 0 := by omega
    rw [Shape.rowMajor_val_two, Shape.rowMajor_val_three]
    show b.val * m + j.val = (b.val * 1 + u.val) * m + j.val
    rw [hu, Nat.mul_one, Nat.add_zero])

/-- A column block [B, n, 1] repeated along the last axis reads, at (b, i, j), its entry (b, i, 0). -/
theorem repeatCol_apply (w : (⟨3, ![B, n, 1]⟩ : Shape).Idx → α) (h : (⟨3, ![B, n, 1]⟩ : Shape).Broadcasts ⟨3, ![B, n, m]⟩)
    (b : Fin B) (i : Fin n) (j : Fin m) : broadcastTo ⟨3, ![B, n, m]⟩ w h (ix3 b i j) = w (ix3 b i (0 : Fin 1)) := by
  refine broadcastTo_apply w h (ix3 b i j) (ix3 b i (0 : Fin 1)) fun ax => ?_
  match ax with
  | ⟨0, _⟩ =>
    show b.val = if B = 1 then 0 else b.val
    split
    · have := b.isLt; omega
    · rfl
  | ⟨1, _⟩ =>
    show i.val = if n = 1 then 0 else i.val
    split
    · have := i.isLt; omega
    · rfl
  | ⟨2, _⟩ => rfl

/-- A row block [B, 1, m] repeated along the middle axis reads, at (b, i, j), its entry (b, 0, j). -/
theorem repeatRow_apply (w : (⟨3, ![B, 1, m]⟩ : Shape).Idx → α) (h : (⟨3, ![B, 1, m]⟩ : Shape).Broadcasts ⟨3, ![B, n, m]⟩)
    (b : Fin B) (i : Fin n) (j : Fin m) : broadcastTo ⟨3, ![B, n, m]⟩ w h (ix3 b i j) = w (ix3 b (0 : Fin 1) j) := by
  refine broadcastTo_apply w h (ix3 b i j) (ix3 b (0 : Fin 1) j) fun ax => ?_
  match ax with
  | ⟨0, _⟩ =>
    show b.val = if B = 1 then 0 else b.val
    split
    · have := b.isLt; omega
    · rfl
  | ⟨1, _⟩ => rfl
  | ⟨2, _⟩ =>
    show j.val = if m = 1 then 0 else j.val
    split
    · have := j.isLt; omega
    · rfl

/-- The host's forms of the same four: a [B, n] array set up as a column block, -/
theorem hostCol_apply (v : (⟨2, ![B, n]⟩ : Shape).Idx → α)
    (h : (⟨2, ![B, n]⟩ : Shape).BroadcastsInDim ⟨3, ![B, n, 1]⟩ ![0, 1]) (b : Fin B) (i : Fin n) (u : Fin 1) :
    broadcastInDim ⟨3, ![B, n, 1]⟩ ![0, 1] h v (ix3 b i u) = v (ix2 b i) := by
  refine broadcastInDim_apply ![0, 1] h v (ix3 b i u) (ix2 b i) fun ax => ?_
  match ax with
  | ⟨0, _⟩ =>
    show b.val = if B = 1 then 0 else b.val
    split
    · have := b.isLt; omega
    · rfl
  | ⟨1, _⟩ =>
    show i.val = if n = 1 then 0 else i.val
    split
    · have := i.isLt; omega
    · rfl

/-- a [B, m] array set up as a row block, -/
theorem hostRow_apply (v : (⟨2, ![B, m]⟩ : Shape).Idx → α)
    (h : (⟨2, ![B, m]⟩ : Shape).BroadcastsInDim ⟨3, ![B, 1, m]⟩ ![0, 2]) (b : Fin B) (u : Fin 1) (j : Fin m) :
    broadcastInDim ⟨3, ![B, 1, m]⟩ ![0, 2] h v (ix3 b u j) = v (ix2 b j) := by
  refine broadcastInDim_apply ![0, 2] h v (ix3 b u j) (ix2 b j) fun ax => ?_
  match ax with
  | ⟨0, _⟩ =>
    show b.val = if B = 1 then 0 else b.val
    split
    · have := b.isLt; omega
    · rfl
  | ⟨1, _⟩ =>
    show j.val = if m = 1 then 0 else j.val
    split
    · have := j.isLt; omega
    · rfl

/-- a column block repeated along the last axis, -/
theorem hostRepeatCol_apply (w : (⟨3, ![B, n, 1]⟩ : Shape).Idx → α)
    (h : (⟨3, ![B, n, 1]⟩ : Shape).BroadcastsInDim ⟨3, ![B, n, m]⟩ ![0, 1, 2]) (b : Fin B) (i : Fin n) (j : Fin m) :
    broadcastInDim ⟨3, ![B, n, m]⟩ ![0, 1, 2] h w (ix3 b i j) = w (ix3 b i (0 : Fin 1)) := by
  refine broadcastInDim_apply ![0, 1, 2] h w (ix3 b i j) (ix3 b i (0 : Fin 1)) fun ax => ?_
  match ax with
  | ⟨0, _⟩ =>
    show b.val = if B = 1 then 0 else b.val
    split
    · have := b.isLt; omega
    · rfl
  | ⟨1, _⟩ =>
    show i.val = if n = 1 then 0 else i.val
    split
    · have := i.isLt; omega
    · rfl
  | ⟨2, _⟩ => rfl

/-- and a row block repeated along the middle axis. -/
theorem hostRepeatRow_apply (w : (⟨3, ![B, 1, m]⟩ : Shape).Idx → α)
    (h : (⟨3, ![B, 1, m]⟩ : Shape).BroadcastsInDim ⟨3, ![B, n, m]⟩ ![0, 1, 2]) (b : Fin B) (i : Fin n) (j : Fin m) :
    broadcastInDim ⟨3, ![B, n, m]⟩ ![0, 1, 2] h w (ix3 b i j) = w (ix3 b (0 : Fin 1) j) := by
  refine broadcastInDim_apply ![0, 1, 2] h w (ix3 b i j) (ix3 b (0 : Fin 1) j) fun ax => ?_
  match ax with
  | ⟨0, _⟩ =>
    show b.val = if B = 1 then 0 else b.val
    split
    · have := b.isLt; omega
    · rfl
  | ⟨1, _⟩ => rfl
  | ⟨2, _⟩ =>
    show j.val = if m = 1 then 0 else j.val
    split
    · have := j.isLt; omega
    · rfl

/-- A scalar repeated (host) over any shape reads its one entry everywhere. -/
theorem hostScalar_apply {t : Shape} (v : (⟨0, ![]⟩ : Shape).Idx → α)
    (h : (⟨0, ![]⟩ : Shape).BroadcastsInDim t (![] : Fin 0 → Fin t.rank)) (j : t.Idx) :
    broadcastInDim t ![] h v j = v ix0 :=
  broadcastInDim_apply ![] h v j ix0 fun ax => ax.elim0

/-! ## Shifted windows -/

variable {n' m' : ℕ}

/-- The window of [B, n, m] that starts at column o, read at (b, i, j): the array at (b, i, o + j). -/
theorem windowLast_apply (o : ℕ) (x : (⟨3, ![B, n, m]⟩ : Shape).Idx → α)
    (h : (⟨3, ![B, n, m]⟩ : Shape).Slices ![0, 0, o] ⟨3, ![B, n, m']⟩) (b : Fin B) (i : Fin n) (j : Fin m') (k : Fin m)
    (hk : k.val = o + j.val) : extractStridedSlice ⟨3, ![B, n, m']⟩ ![0, 0, o] x h (ix3 b i j) = x (ix3 b i k) :=
  extractStridedSlice_apply ![0, 0, o] x h (ix3 b i j) (ix3 b i k) fun a =>
    match a with
    | ⟨0, _⟩ => by show b.val = 0 + b.val; omega
    | ⟨1, _⟩ => by show i.val = 0 + i.val; omega
    | ⟨2, _⟩ => by show k.val = o + j.val; exact hk

/-- The window of [B, n, m] that starts at row o, read at (b, i, j): the array at (b, o + i, j). -/
theorem windowMid_apply (o : ℕ) (x : (⟨3, ![B, n, m]⟩ : Shape).Idx → α)
    (h : (⟨3, ![B, n, m]⟩ : Shape).Slices ![0, o, 0] ⟨3, ![B, n', m]⟩) (b : Fin B) (i : Fin n') (j : Fin m) (k : Fin n)
    (hk : k.val = o + i.val) : extractStridedSlice ⟨3, ![B, n', m]⟩ ![0, o, 0] x h (ix3 b i j) = x (ix3 b k j) :=
  extractStridedSlice_apply ![0, o, 0] x h (ix3 b i j) (ix3 b k j) fun a =>
    match a with
    | ⟨0, _⟩ => by show b.val = 0 + b.val; omega
    | ⟨1, _⟩ => by show k.val = o + i.val; exact hk
    | ⟨2, _⟩ => by show j.val = 0 + j.val; omega

end Cert.LibBatchReads

end
-- ==== Proof.LibColumn.lean ====
/-
  Columns and rows of small shapes read at an index.

  A column `[a, 1]` stretched along its unit axis to `[a, b]` reads, at `(p, c)`, its entry `(p, 0)`; a row
  `[1, b]` stretched to `[a, b]` reads its entry `(0, c)`; a vector `[a]` set up as a column `[a, 1]` (by a cast, or by
  a broadcast that names its one axis) or as a row `[1, a]` reads its entry `p`; a scalar stretched to any shape reads
  its one entry.  These are the host's `broadcast_in_dim` and the vector unit's `broadcast` / `shape_cast` in the
  forms a "keep the axis" reduction or a bias produces.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- A column `[a, 1]` broadcast (vector unit) to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (host) along axes `[0, 1]` to `[a, b]` reads, at `(p, c)`, the column's entry `p`. -/
theorem bcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (host) along axes `[0, 1]` to `[a, b]` reads, at `(p, c)`, the row's entry `c`. -/
theorem bcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[b]` broadcast (host) along axis `[1]` to a row `[1, b]` reads, at `(u, c)`, the vector's entry `c`. -/
theorem bcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[a]` broadcast (host) along axis `[0]` to a column `[a, 1]` reads, at `(p, u)`, the vector's entry `p`. -/
theorem bcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A vector `[a]` cast to a column `[a, 1]` reads, at `(p, u)`, the vector's entry `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu]; omega)

/-- So the cast of a vector to a column and its broadcast to a column are one array. -/
theorem shapeCast_a_a1_eq_bcastInDim {a : ℕ} (v : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ v h = broadcastInDim ⟨2, ![a, 1]⟩ ![0] h' v := by
  funext j
  obtain ⟨p, u, rfl⟩ : ∃ (p : Fin a) (u : Fin 1), j = ix2 p u := ⟨j 0, j 1, eq_ix2 j⟩
  rw [shapeCast_a_a1_apply, bcastInDim_a_a1_apply]

/-- A scalar broadcast (host) to any shape reads its one entry everywhere. -/
theorem bcastInDim_scalar_apply {t : Shape} (v : (⟨0, ![]⟩ : Shape).Idx → α)
    (h : (⟨0, ![]⟩ : Shape).BroadcastsInDim t (![] : Fin 0 → Fin t.rank)) (j : t.Idx) (k : (⟨0, ![]⟩ : Shape).Idx) :
    broadcastInDim t ![] h v j = v k :=
  broadcastInDim_apply ![] h v j k fun ax => ax.elim0

end Cert.LibColumn
-- ==== Proof.LibRowReduce.lean ====
/- Row reductions of a two-axis array kept as a column and repeated along the rows, read at an index over the extended reals:
   the lane sum of row p is the plain sum over the row, the lane maximum the fold of max over the row from the initial word; a
   length-a vector cast to an a × 1 column and broadcast to a × b reads, at (p, q), the vector's entry p; a 1 × 1 array broadcast
   to a × b reads its one entry everywhere. Names no program. -/
import proofs.«138720_j10213432230328_2_alg».proof.Proof.LibColumn
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

namespace Cert.LibRowReduce

open Idealize.ShloMosaic Idealize.ShloMosaic.ValueIdx

variable {a b : ℕ}

/-- Result index p of a reduction along the second axis, with the dropped coordinate k put back, is (p, k). -/
theorem lift_row (h : (⟨2, ![a, b]⟩ : Shape).Reduces [(1 : Fin 2)] ⟨1, ![a]⟩) (p : Fin a) (k : Fin b) :
    h.lift (ix1 p) k = ix2 p k := by
  funext c
  apply Fin.ext
  match c with
  | ⟨0, _⟩ => rfl
  | ⟨1, _⟩ => rfl

/-- The lane sum of row p. -/
theorem rowSum_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (p : Fin a) :
    multiReduction .add [(1 : Fin 2)] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The lane maximum of row p: max folded over the row from the initial word. -/
theorem rowMax_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (p : Fin a) :
    multiReduction .maximumf [(1 : Fin 2)] ⟨1, ![a]⟩ src acc h hφ hacc (ix1 p)
      = (Finset.univ : Finset (Fin b)).fold max (FloatOps.ofBits (F := Ideal) φ acc) (fun k => src (ix2 p k)) :=
  (Ideal.multiReduction_maximumf_single src acc h hφ hacc (ix1 p)).trans
    (congrArg (fun f => (Finset.univ : Finset (Fin b)).fold max (FloatOps.ofBits (F := Ideal) φ acc) f)
      (funext fun k => congrArg src (lift_row h p k)))

variable {α : Type}

/-- A vector kept as a column and repeated along the rows reads, at (p, q), its entry p. -/
theorem column_repeat_apply {b' : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b']⟩) (p : Fin a) (q : Fin b') :
    broadcastTo ⟨2, ![a, b']⟩ (shapeCast ⟨2, ![a, 1]⟩ v hc) hb (ix2 p q) = v (ix1 p) :=
  (Cert.LibColumn.broadcastTo_a1_ab_apply _ hb p q).trans (Cert.LibColumn.shapeCast_a_a1_apply v hc p 0)

/-- A 1 × 1 array repeated over a × b reads its one entry everywhere. -/
theorem broadcastTo_11_ab_apply (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

end Cert.LibRowReduce

end
-- ==== Proof.LibNormalize.lean ====
/- Rows and columns scaled to unit length, and the sums of their products, over the extended reals.
   For a matrix X (n rows, m columns) and a floor e: rowUnit e X is X with every entry divided by the larger of its row's
   Euclidean length and e, colUnit the same by columns; rowDot e X Y is the sum over all entries of rowUnit X times rowUnit Y
   (rows outside, columns inside), colDot the same for colUnit (columns outside, rows inside). Then, for batched arrays
   [B, n, m] at any extents: the vector unit's arrangement of these (a sum along one axis kept as a block of width one, its
   square root, the floor, the block repeated, a division; then a sum along one axis and a sum of the result), and the host's
   arrangement (every sum started from an initial value that is zero, the last one over both axes at once), read at batch b,
   ARE rowUnit / colUnit and rowDot / colDot of batch b's matrix. Only commutativity and associativity of + are used, so
   nothing is asked of the entries (infinite ones included). Names no program. -/
import proofs.«138720_j10213432230328_2_alg».proof.Proof.LibBatchReads
import proofs.«138720_j10213432230328_2_alg».proof.Proof.LibRowReduce

noncomputable section

namespace Cert.LibNormalize

open Idealize.ShloMosaic Idealize.ShloMosaic.ValueIdx Cert.LibBatchReads

variable {n m : ℕ}

/-! ## The mathematics -/

/-- Entry (i, j) of X divided by the larger of row i's Euclidean length and e. -/
def rowUnit (e : EReal) (X : Fin n → Fin m → EReal) (i : Fin n) (j : Fin m) : EReal :=
  Ideal.div (X i j) (max (Ideal.sqrt (∑ k : Fin m, X i k * X i k)) e)

/-- Entry (i, j) of X divided by the larger of column j's Euclidean length and e. -/
def colUnit (e : EReal) (X : Fin n → Fin m → EReal) (i : Fin n) (j : Fin m) : EReal :=
  Ideal.div (X i j) (max (Ideal.sqrt (∑ k : Fin n, X k j * X k j)) e)

/-- The sum over all entries of the products of the row-scaled matrices. -/
def rowDot (e : EReal) (X Y : Fin n → Fin m → EReal) : EReal :=
  ∑ i : Fin n, ∑ j : Fin m, rowUnit e X i j * rowUnit e Y i j

/-- The sum over all entries of the products of the column-scaled matrices. -/
def colDot (e : EReal) (X Y : Fin n → Fin m → EReal) : EReal :=
  ∑ j : Fin m, ∑ i : Fin n, colUnit e X i j * colUnit e Y i j

variable {B : ℕ}

/-- Batch b of a batched array, as a matrix. -/
abbrev mat (X : (⟨3, ![B, n, m]⟩ : Shape).Idx → EReal) (b : Fin B) : Fin n → Fin m → EReal := fun i j => X (ix3 b i j)

theorem sqrt_apply {s : Shape} {φ : FTy} (a : FVec Ideal s φ) (i : s.Idx) : sqrt a i = Ideal.sqrt (a i) := rfl

/-! ## The vector unit's arrangement -/

/-- Rows: the sum of squares along the last axis kept as a column block, its root, the floor, repeated, divided into X. -/
theorem rowUnitV_apply (X : FVec Ideal ⟨3, ![B, n, m]⟩ .f32) (e : Ideal .f32) (acc : BitVec FTy.f32.bits)
    (h : (⟨3, ![B, n, m]⟩ : Shape).Reduces [(2 : Fin 3)] ⟨2, ![B, n]⟩) (hφ : FKind.Formats .f32)
    (hacc : acc = FKind.add.neutral .f32 hφ) (hc : (⟨2, ![B, n]⟩ : Shape).ShapeCasts ⟨3, ![B, n, 1]⟩)
    (hb : (⟨3, ![B, n, 1]⟩ : Shape).Broadcasts ⟨3, ![B, n, m]⟩) (b : Fin B) (i : Fin n) (j : Fin m) :
    divf X (broadcastTo ⟨3, ![B, n, m]⟩ (maximumf (sqrt (shapeCast ⟨3, ![B, n, 1]⟩
        (multiReduction .add [(2 : Fin 3)] ⟨2, ![B, n]⟩ (mulf X X) acc h hφ hacc) hc)) (broadcast ⟨3, ![B, n, 1]⟩ e)) hb) (ix3 b i j)
      = rowUnit e (mat X b) i j := by
  rw [divf_apply, repeatCol_apply, maximumf_apply, broadcast_apply, sqrt_apply, castCol_apply, sumLast_apply]
  rfl

/-- Columns: the same along the middle axis, kept as a row block. -/
theorem colUnitV_apply (X : FVec Ideal ⟨3, ![B, n, m]⟩ .f32) (e : Ideal .f32) (acc : BitVec FTy.f32.bits)
    (h : (⟨3, ![B, n, m]⟩ : Shape).Reduces [(1 : Fin 3)] ⟨2, ![B, m]⟩) (hφ : FKind.Formats .f32)
    (hacc : acc = FKind.add.neutral .f32 hφ) (hc : (⟨2, ![B, m]⟩ : Shape).ShapeCasts ⟨3, ![B, 1, m]⟩)
    (hb : (⟨3, ![B, 1, m]⟩ : Shape).Broadcasts ⟨3, ![B, n, m]⟩) (b : Fin B) (i : Fin n) (j : Fin m) :
    divf X (broadcastTo ⟨3, ![B, n, m]⟩ (maximumf (sqrt (shapeCast ⟨3, ![B, 1, m]⟩
        (multiReduction .add [(1 : Fin 3)] ⟨2, ![B, m]⟩ (mulf X X) acc h hφ hacc) hc)) (broadcast ⟨3, ![B, 1, m]⟩ e)) hb) (ix3 b i j)
      = colUnit e (mat X b) i j := by
  rw [divf_apply, repeatRow_apply, maximumf_apply, broadcast_apply, sqrt_apply, castRow_apply, sumMid_apply]
  rfl

/-- A sum along the last axis and then over the rows, at batch b: rows outside, columns inside. -/
theorem sumRowsV_apply (T : FVec Ideal ⟨3, ![B, n, m]⟩ .f32) (a1 a2 : BitVec FTy.f32.bits)
    (h1 : (⟨3, ![B, n, m]⟩ : Shape).Reduces [(2 : Fin 3)] ⟨2, ![B, n]⟩) (hφ1 : FKind.Formats .f32)
    (ha1 : a1 = FKind.add.neutral .f32 hφ1) (h2 : (⟨2, ![B, n]⟩ : Shape).Reduces [(1 : Fin 2)] ⟨1, ![B]⟩)
    (hφ2 : FKind.Formats .f32) (ha2 : a2 = FKind.add.neutral .f32 hφ2) (b : Fin B) :
    multiReduction .add [(1 : Fin 2)] ⟨1, ![B]⟩ (multiReduction .add [(2 : Fin 3)] ⟨2, ![B, n]⟩ T a1 h1 hφ1 ha1) a2 h2 hφ2 ha2
        (ix1 b) = ∑ i : Fin n, ∑ j : Fin m, T (ix3 b i j) := by
  rw [Cert.LibRowReduce.rowSum_apply]
  exact Finset.sum_congr rfl fun i _ => sumLast_apply T a1 h1 hφ1 ha1 b i

/-- A sum along the middle axis and then over the columns, at batch b: columns outside, rows inside. -/
theorem sumColsV_apply (T : FVec Ideal ⟨3, ![B, n, m]⟩ .f32) (a1 a2 : BitVec FTy.f32.bits)
    (h1 : (⟨3, ![B, n, m]⟩ : Shape).Reduces [(1 : Fin 3)] ⟨2, ![B, m]⟩) (hφ1 : FKind.Formats .f32)
    (ha1 : a1 = FKind.add.neutral .f32 hφ1) (h2 : (⟨2, ![B, m]⟩ : Shape).Reduces [(1 : Fin 2)] ⟨1, ![B]⟩)
    (hφ2 : FKind.Formats .f32) (ha2 : a2 = FKind.add.neutral .f32 hφ2) (b : Fin B) :
    multiReduction .add [(1 : Fin 2)] ⟨1, ![B]⟩ (multiReduction .add [(1 : Fin 3)] ⟨2, ![B, m]⟩ T a1 h1 hφ1 ha1) a2 h2 hφ2 ha2
        (ix1 b) = ∑ j : Fin m, ∑ i : Fin n, T (ix3 b i j) := by
  rw [Cert.LibRowReduce.rowSum_apply]
  exact Finset.sum_congr rfl fun j _ => sumMid_apply T a1 h1 hφ1 ha1 b j

/-- The vector unit's whole row score: both arrays row-scaled, multiplied, summed, divided by w. -/
theorem rowScoreV_apply (X Y : FVec Ideal ⟨3, ![B, n, m]⟩ .f32) (e w : Ideal .f32)
    {ax ay a1 a2 : BitVec FTy.f32.bits}
    {hx hy h1 : (⟨3, ![B, n, m]⟩ : Shape).Reduces [(2 : Fin 3)] ⟨2, ![B, n]⟩} {fx fy f1 f2 : FKind.Formats .f32}
    {hax : ax = FKind.add.neutral .f32 fx} {hay : ay = FKind.add.neutral .f32 fy}
    {ha1 : a1 = FKind.add.neutral .f32 f1} {ha2 : a2 = FKind.add.neutral .f32 f2}
    {hcx hcy : (⟨2, ![B, n]⟩ : Shape).ShapeCasts ⟨3, ![B, n, 1]⟩}
    {hbx hby : (⟨3, ![B, n, 1]⟩ : Shape).Broadcasts ⟨3, ![B, n, m]⟩}
    {h2 : (⟨2, ![B, n]⟩ : Shape).Reduces [(1 : Fin 2)] ⟨1, ![B]⟩} (b : Fin B) :
    divf (multiReduction .add [(1 : Fin 2)] ⟨1, ![B]⟩ (multiReduction .add [(2 : Fin 3)] ⟨2, ![B, n]⟩
        (mulf
          (divf X (broadcastTo ⟨3, ![B, n, m]⟩ (maximumf (sqrt (shapeCast ⟨3, ![B, n, 1]⟩
            (multiReduction .add [(2 : Fin 3)] ⟨2, ![B, n]⟩ (mulf X X) ax hx fx hax) hcx)) (broadcast ⟨3, ![B, n, 1]⟩ e)) hbx))
          (divf Y (broadcastTo ⟨3, ![B, n, m]⟩ (maximumf (sqrt (shapeCast ⟨3, ![B, n, 1]⟩
            (multiReduction .add [(2 : Fin 3)] ⟨2, ![B, n]⟩ (mulf Y Y) ay hy fy hay) hcy)) (broadcast ⟨3, ![B, n, 1]⟩ e)) hby)))
        a1 h1 f1 ha1) a2 h2 f2 ha2) (broadcast ⟨1, ![B]⟩ w) (ix1 b)
      = Ideal.div (rowDot e (mat X b) (mat Y b)) w := by
  rw [divf_apply, broadcast_apply, sumRowsV_apply]
  unfold rowDot
  refine congrArg (Ideal.div · w) (Finset.sum_congr rfl fun i _ => Finset.sum_congr rfl fun j _ => ?_)
  rw [mulf_apply, rowUnitV_apply, rowUnitV_apply]

/-- The vector unit's whole column score. -/
theorem colScoreV_apply (X Y : FVec Ideal ⟨3, ![B, n, m]⟩ .f32) (e w : Ideal .f32)
    {ax ay a1 a2 : BitVec FTy.f32.bits}
    {hx hy h1 : (⟨3, ![B, n, m]⟩ : Shape).Reduces [(1 : Fin 3)] ⟨2, ![B, m]⟩} {fx fy f1 f2 : FKind.Formats .f32}
    {hax : ax = FKind.add.neutral .f32 fx} {hay : ay = FKind.add.neutral .f32 fy}
    {ha1 : a1 = FKind.add.neutral .f32 f1} {ha2 : a2 = FKind.add.neutral .f32 f2}
    {hcx hcy : (⟨2, ![B, m]⟩ : Shape).ShapeCasts ⟨3, ![B, 1, m]⟩}
    {hbx hby : (⟨3, ![B, 1, m]⟩ : Shape).Broadcasts ⟨3, ![B, n, m]⟩}
    {h2 : (⟨2, ![B, m]⟩ : Shape).Reduces [(1 : Fin 2)] ⟨1, ![B]⟩} (b : Fin B) :
    divf (multiReduction .add [(1 : Fin 2)] ⟨1, ![B]⟩ (multiReduction .add [(1 : Fin 3)] ⟨2, ![B, m]⟩
        (mulf
          (divf X (broadcastTo ⟨3, ![B, n, m]⟩ (maximumf (sqrt (shapeCast ⟨3, ![B, 1, m]⟩
            (multiReduction .add [(1 : Fin 3)] ⟨2, ![B, m]⟩ (mulf X X) ax hx fx hax) hcx)) (broadcast ⟨3, ![B, 1, m]⟩ e)) hbx))
          (divf Y (broadcastTo ⟨3, ![B, n, m]⟩ (maximumf (sqrt (shapeCast ⟨3, ![B, 1, m]⟩
            (multiReduction .add [(1 : Fin 3)] ⟨2, ![B, m]⟩ (mulf Y Y) ay hy fy hay) hcy)) (broadcast ⟨3, ![B, 1, m]⟩ e)) hby)))
        a1 h1 f1 ha1) a2 h2 f2 ha2) (broadcast ⟨1, ![B]⟩ w) (ix1 b)
      = Ideal.div (colDot e (mat X b) (mat Y b)) w := by
  rw [divf_apply, broadcast_apply, sumColsV_apply]
  unfold colDot
  refine congrArg (Ideal.div · w) (Finset.sum_congr rfl fun j _ => Finset.sum_congr rfl fun i _ => ?_)
  rw [mulf_apply, colUnitV_apply, colUnitV_apply]

/-! ## The host's arrangement -/

/-- Rows, as the host arranges them; the sum starts from z, which is zero. -/
theorem rowUnitH_apply (X : FVec Ideal ⟨3, ![B, n, m]⟩ .f32) (z e : FVec Ideal ⟨0, ![]⟩ .f32)
    (h : (⟨3, ![B, n, m]⟩ : Shape).ReducesTo [(2 : Fin 3)] ⟨2, ![B, n]⟩) (hu : 0 < (⟨0, ![]⟩ : Shape).numel)
    (hc : (⟨2, ![B, n]⟩ : Shape).BroadcastsInDim ⟨3, ![B, n, 1]⟩ ![0, 1])
    (he : (⟨0, ![]⟩ : Shape).BroadcastsInDim ⟨3, ![B, n, 1]⟩ ![])
    (hb : (⟨3, ![B, n, 1]⟩ : Shape).BroadcastsInDim ⟨3, ![B, n, m]⟩ ![0, 1, 2])
    (hz : z ix0 = 0) (b : Fin B) (i : Fin n) (j : Fin m) :
    Host.divf X (broadcastInDim ⟨3, ![B, n, m]⟩ ![0, 1, 2] hb (maximumf (Host.sqrt (broadcastInDim ⟨3, ![B, n, 1]⟩ ![0, 1] hc
        (Host.reduceAdd (mulf X X) z h hu))) (broadcastInDim ⟨3, ![B, n, 1]⟩ ![] he e))) (ix3 b i j)
      = rowUnit (e ix0) (mat X b) i j := by
  show Ideal.div (X (ix3 b i j)) _ = _
  rw [hostRepeatCol_apply, maximumf_apply, hostScalar_apply]
  show Ideal.div _ (max (Ideal.sqrt (broadcastInDim _ _ hc _ (ix3 b i 0))) _) = _
  rw [hostCol_apply]
  show Ideal.div _ (max (Ideal.sqrt (Ideal.hostReduceAdd h (mulf X X) (z (Shape.Idx.first hu)) (ix2 b i))) _) = _
  rw [hostSumLast_apply, show z (Shape.Idx.first hu) = z ix0 from congrArg z (eq_ix0 _), hz, zero_add]
  rfl

/-- Columns, as the host arranges them. -/
theorem colUnitH_apply (X : FVec Ideal ⟨3, ![B, n, m]⟩ .f32) (z e : FVec Ideal ⟨0, ![]⟩ .f32)
    (h : (⟨3, ![B, n, m]⟩ : Shape).ReducesTo [(1 : Fin 3)] ⟨2, ![B, m]⟩) (hu : 0 < (⟨0, ![]⟩ : Shape).numel)
    (hc : (⟨2, ![B, m]⟩ : Shape).BroadcastsInDim ⟨3, ![B, 1, m]⟩ ![0, 2])
    (he : (⟨0, ![]⟩ : Shape).BroadcastsInDim ⟨3, ![B, 1, m]⟩ ![])
    (hb : (⟨3, ![B, 1, m]⟩ : Shape).BroadcastsInDim ⟨3, ![B, n, m]⟩ ![0, 1, 2])
    (hz : z ix0 = 0) (b : Fin B) (i : Fin n) (j : Fin m) :
    Host.divf X (broadcastInDim ⟨3, ![B, n, m]⟩ ![0, 1, 2] hb (maximumf (Host.sqrt (broadcastInDim ⟨3, ![B, 1, m]⟩ ![0, 2] hc
        (Host.reduceAdd (mulf X X) z h hu))) (broadcastInDim ⟨3, ![B, 1, m]⟩ ![] he e))) (ix3 b i j)
      = colUnit (e ix0) (mat X b) i j := by
  show Ideal.div (X (ix3 b i j)) _ = _
  rw [hostRepeatRow_apply, maximumf_apply, hostScalar_apply]
  show Ideal.div _ (max (Ideal.sqrt (broadcastInDim _ _ hc _ (ix3 b 0 j))) _) = _
  rw [hostRow_apply]
  show Ideal.div _ (max (Ideal.sqrt (Ideal.hostReduceAdd h (mulf X X) (z (Shape.Idx.first hu)) (ix2 b j))) _) = _
  rw [hostSumMid_apply, show z (Shape.Idx.first hu) = z ix0 from congrArg z (eq_ix0 _), hz, zero_add]
  rfl

/-- The host's sum over both trailing axes from a zero initial value, at batch b: rows outside, columns inside. -/
theorem sumBothH_apply (T : FVec Ideal ⟨3, ![B, n, m]⟩ .f32) (z : FVec Ideal ⟨0, ![]⟩ .f32)
    (h : (⟨3, ![B, n, m]⟩ : Shape).ReducesTo [(1 : Fin 3), (2 : Fin 3)] ⟨1, ![B]⟩) (hu : 0 < (⟨0, ![]⟩ : Shape).numel)
    (hz : z ix0 = 0) (b : Fin B) :
    Host.reduceAdd T z h hu (ix1 b) = ∑ i : Fin n, ∑ j : Fin m, T (ix3 b i j) := by
  show Ideal.hostReduceAdd h T (z (Shape.Idx.first hu)) (ix1 b) = _
  rw [hostSumTrailing_apply, show z (Shape.Idx.first hu) = z ix0 from congrArg z (eq_ix0 _), hz, zero_add]

/-- The host's whole row score: both arrays row-scaled, multiplied, summed over both trailing axes, divided by w. -/
theorem rowScoreH_apply (X Y : FVec Ideal ⟨3, ![B, n, m]⟩ .f32) (zx zy z1 ex ey w : FVec Ideal ⟨0, ![]⟩ .f32) (e d : EReal)
    {hx hy : (⟨3, ![B, n, m]⟩ : Shape).ReducesTo [(2 : Fin 3)] ⟨2, ![B, n]⟩} {ux uy u1 : 0 < (⟨0, ![]⟩ : Shape).numel}
    {hcx hcy : (⟨2, ![B, n]⟩ : Shape).BroadcastsInDim ⟨3, ![B, n, 1]⟩ ![0, 1]}
    {hex hey : (⟨0, ![]⟩ : Shape).BroadcastsInDim ⟨3, ![B, n, 1]⟩ ![]}
    {hbx hby : (⟨3, ![B, n, 1]⟩ : Shape).BroadcastsInDim ⟨3, ![B, n, m]⟩ ![0, 1, 2]}
    {h1 : (⟨3, ![B, n, m]⟩ : Shape).ReducesTo [(1 : Fin 3), (2 : Fin 3)] ⟨1, ![B]⟩}
    {hw : (⟨0, ![]⟩ : Shape).BroadcastsInDim ⟨1, ![B]⟩ ![]}
    (hzx : zx ix0 = 0) (hzy : zy ix0 = 0) (hz1 : z1 ix0 = 0) (hx' : ex ix0 = e) (hy' : ey ix0 = e) (hw' : w ix0 = d)
    (b : Fin B) :
    Host.divf (Host.reduceAdd (mulf
          (Host.divf X (broadcastInDim ⟨3, ![B, n, m]⟩ ![0, 1, 2] hbx (maximumf (Host.sqrt
            (broadcastInDim ⟨3, ![B, n, 1]⟩ ![0, 1] hcx (Host.reduceAdd (mulf X X) zx hx ux)))
            (broadcastInDim ⟨3, ![B, n, 1]⟩ ![] hex ex))))
          (Host.divf Y (broadcastInDim ⟨3, ![B, n, m]⟩ ![0, 1, 2] hby (maximumf (Host.sqrt
            (broadcastInDim ⟨3, ![B, n, 1]⟩ ![0, 1] hcy (Host.reduceAdd (mulf Y Y) zy hy uy)))
            (broadcastInDim ⟨3, ![B, n, 1]⟩ ![] hey ey)))))
        z1 h1 u1) (broadcastInDim ⟨1, ![B]⟩ ![] hw w) (ix1 b)
      = Ideal.div (rowDot e (mat X b) (mat Y b)) d := by
  show Ideal.div (Host.reduceAdd _ z1 h1 u1 (ix1 b)) (broadcastInDim ⟨1, ![B]⟩ ![] hw w (ix1 b)) = _
  rw [hostScalar_apply, hw', sumBothH_apply _ _ _ _ hz1]
  unfold rowDot
  refine congrArg (Ideal.div · d) (Finset.sum_congr rfl fun i _ => Finset.sum_congr rfl fun j _ => ?_)
  rw [mulf_apply, rowUnitH_apply _ _ _ _ _ _ _ _ hzx, rowUnitH_apply _ _ _ _ _ _ _ _ hzy, hx', hy']

/-- The host's whole column score (its sum over both trailing axes runs rows outside; the order of a finite sum is free). -/
theorem colScoreH_apply (X Y : FVec Ideal ⟨3, ![B, n, m]⟩ .f32) (zx zy z1 ex ey w : FVec Ideal ⟨0, ![]⟩ .f32) (e d : EReal)
    {hx hy : (⟨3, ![B, n, m]⟩ : Shape).ReducesTo [(1 : Fin 3)] ⟨2, ![B, m]⟩} {ux uy u1 : 0 < (⟨0, ![]⟩ : Shape).numel}
    {hcx hcy : (⟨2, ![B, m]⟩ : Shape).BroadcastsInDim ⟨3, ![B, 1, m]⟩ ![0, 2]}
    {hex hey : (⟨0, ![]⟩ : Shape).BroadcastsInDim ⟨3, ![B, 1, m]⟩ ![]}
    {hbx hby : (⟨3, ![B, 1, m]⟩ : Shape).BroadcastsInDim ⟨3, ![B, n, m]⟩ ![0, 1, 2]}
    {h1 : (⟨3, ![B, n, m]⟩ : Shape).ReducesTo [(1 : Fin 3), (2 : Fin 3)] ⟨1, ![B]⟩}
    {hw : (⟨0, ![]⟩ : Shape).BroadcastsInDim ⟨1, ![B]⟩ ![]}
    (hzx : zx ix0 = 0) (hzy : zy ix0 = 0) (hz1 : z1 ix0 = 0) (hx' : ex ix0 = e) (hy' : ey ix0 = e) (hw' : w ix0 = d)
    (b : Fin B) :
    Host.divf (Host.reduceAdd (mulf
          (Host.divf X (broadcastInDim ⟨3, ![B, n, m]⟩ ![0, 1, 2] hbx (maximumf (Host.sqrt
            (broadcastInDim ⟨3, ![B, 1, m]⟩ ![0, 2] hcx (Host.reduceAdd (mulf X X) zx hx ux)))
            (broadcastInDim ⟨3, ![B, 1, m]⟩ ![] hex ex))))
          (Host.divf Y (broadcastInDim ⟨3, ![B, n, m]⟩ ![0, 1, 2] hby (maximumf (Host.sqrt
            (broadcastInDim ⟨3, ![B, 1, m]⟩ ![0, 2] hcy (Host.reduceAdd (mulf Y Y) zy hy uy)))
            (broadcastInDim ⟨3, ![B, 1, m]⟩ ![] hey ey)))))
        z1 h1 u1) (broadcastInDim ⟨1, ![B]⟩ ![] hw w) (ix1 b)
      = Ideal.div (colDot e (mat X b) (mat Y b)) d := by
  show Ideal.div (Host.reduceAdd _ z1 h1 u1 (ix1 b)) (broadcastInDim ⟨1, ![B]⟩ ![] hw w (ix1 b)) = _
  rw [hostScalar_apply, hw', sumBothH_apply _ _ _ _ hz1, Finset.sum_comm]
  unfold colDot
  refine congrArg (Ideal.div · d) (Finset.sum_congr rfl fun j _ => Finset.sum_congr rfl fun i _ => ?_)
  rw [mulf_apply, colUnitH_apply _ _ _ _ _ _ _ _ hzx, colUnitH_apply _ _ _ _ _ _ _ _ hzy, hx', hy']

/-! ## The mean of a one-axis array, as the host arranges it -/

/-- A sum over the index type of a one-axis shape is the sum over its coordinate. -/
theorem sum_idx1 {M : Type*} [AddCommMonoid M] {k : ℕ} (f : (⟨1, ![k]⟩ : Shape).Idx → M) :
    ∑ i, f i = ∑ b : Fin k, f (ix1 b) :=
  Fintype.sum_equiv ⟨fun i => (i 0 : Fin k), ix1, fun i => (eq_ix1 i).symm, fun _ => rfl⟩ _ _
    (fun i => congrArg f (eq_ix1 i))

/-- The host's sum of a one-axis array from a zero initial value, divided by w: the plain sum over the coordinate over w. -/
theorem meanH_apply {k : ℕ} (v : FVec Ideal ⟨1, ![k]⟩ .f32) (z w : FVec Ideal ⟨0, ![]⟩ .f32) (d : EReal)
    {h : (⟨1, ![k]⟩ : Shape).ReducesTo [(0 : Fin 1)] ⟨0, ![]⟩} {u : 0 < (⟨0, ![]⟩ : Shape).numel}
    (hz : z ix0 = 0) (hw : w ix0 = d) (j : (⟨0, ![]⟩ : Shape).Idx) :
    Host.divf (Host.reduceAdd v z h u) w j = Ideal.div (∑ b : Fin k, v (ix1 b)) d := by
  show Ideal.div (Ideal.hostReduceAdd h v (z (Shape.Idx.first u)) j) (w j) = _
  rw [Ideal.hostReduceAdd_total h (fun b => b.elim0), show z (Shape.Idx.first u) = z ix0 from congrArg z (eq_ix0 _), hz,
    zero_add, show w j = w ix0 from congrArg w (eq_ix0 _), hw, sum_idx1]

end Cert.LibNormalize

end
-- ==== Proof.Spec.lean ====
/- What both programs compute, as mathematics over the extended reals.

   Each input is 16 batches of 68 channel planes of 256 × 256 entries. Per batch the channel planes are summed into one plane
   (P from the first input, G from the second). From a plane two difference matrices are taken: dCol (neighbouring columns,
   256 × 255) and dRow (neighbouring rows, 255 × 256). For each kind of difference the matrices of P and G are scaled to unit
   rows (resp. unit columns), multiplied entry by entry and summed: four numbers per batch — the row score and the column
   score of the column differences, divided by 256 and 255, and of the row differences, divided by 255 and 256. The result
   is minus the batch mean of each of the four, added up. -/
import proofs.«138720_j10213432230328_2_alg».proof.Proof.LibNormalize

noncomputable section

namespace Cert.Spec

open Idealize.ShloMosaic Idealize.ShloMosaic.ValueIdx Cert.LibNormalize

/-- The floor under every Euclidean length (the word both programs carry). -/
abbrev eps : EReal := Ideal.ofBits .f32 0x2B8CBCCC#32
abbrev c256 : EReal := Ideal.ofBits .f32 0x43800000#32
abbrev c255 : EReal := Ideal.ofBits .f32 0x437F0000#32
abbrev c16 : EReal := Ideal.ofBits .f32 0x41800000#32

/-- Differences of neighbouring columns. -/
def dCol (P : Fin 256 → Fin 256 → EReal) : Fin 256 → Fin 255 → EReal :=
  fun i j => P i ⟨j.val, by omega⟩ - P i ⟨j.val + 1, by omega⟩

/-- Differences of neighbouring rows. -/
def dRow (P : Fin 256 → Fin 256 → EReal) : Fin 255 → Fin 256 → EReal :=
  fun i j => P ⟨i.val, by omega⟩ j - P ⟨i.val + 1, by omega⟩ j

def colRows (P G : Fin 256 → Fin 256 → EReal) : EReal := Ideal.div (rowDot eps (dCol P) (dCol G)) c256
def colCols (P G : Fin 256 → Fin 256 → EReal) : EReal := Ideal.div (colDot eps (dCol P) (dCol G)) c255
def rowRows (P G : Fin 256 → Fin 256 → EReal) : EReal := Ideal.div (rowDot eps (dRow P) (dRow G)) c255
def rowCols (P G : Fin 256 → Fin 256 → EReal) : EReal := Ideal.div (colDot eps (dRow P) (dRow G)) c256

/-- Batch b's plane: the sum of its 68 channel planes. -/
def plane (X : (⟨4, ![16, 68, 256, 256]⟩ : Shape).Idx → EReal) (b : Fin 16) : Fin 256 → Fin 256 → EReal :=
  fun i j => ∑ c : Fin 68, X (ix4 b c i j)

/-- The mean over the 16 batches. -/
def mean16 (f : Fin 16 → EReal) : EReal := Ideal.div (∑ b : Fin 16, f b) c16

/-- The result, in the order the first program subtracts. -/
def loss (X Y : (⟨4, ![16, 68, 256, 256]⟩ : Shape).Idx → EReal) : EReal :=
  ((-(mean16 fun b => colRows (plane X b) (plane Y b)) - mean16 fun b => colCols (plane X b) (plane Y b))
    - mean16 fun b => rowRows (plane X b) (plane Y b)) - mean16 fun b => rowCols (plane X b) (plane Y b)

/-- Subtracting two numbers one after the other is adding the sum of their negatives: + on the extended reals is
    associative, so this needs no finiteness. -/
theorem sub_sub_eq_add (x c d : EReal) : x - c - d = x + (-c - d) := by
  rw [sub_eq_add_neg, sub_eq_add_neg, sub_eq_add_neg, add_assoc]

end Cert.Spec

end
-- ==== Proof.KernelTile.lean ====
/- The finalize step's arithmetic read over the extended reals. From the two accumulated planes P and G (as 256 × 256
   matrices) the body forms the column differences and the row differences, and from each pair the row score and the column
   score of Spec; it then places the four numbers in lanes 0, 1, 2, 3 of row 0 of an 8 × 128 tile, each as a masked copy
   added to zeros: lane k of row 0 holds exactly the k-th number (x + 0 = x on the extended reals, infinite x included). -/
import proofs.«138720_j10213432230328_2_alg».proof.Proof.Gen.KernelIdeal.Skeleton
import proofs.«138720_j10213432230328_2_alg».proof.Proof.Spec
import Idealize.ShloMosaic.Lib.ValueLayout

noncomputable section

namespace Cert.KernelIdeal.TileValue

open Idealize.ShloMosaic Idealize.ShloMosaic.ValueIdx Cert.KernelIdeal Cert.KernelIdeal.Gen
open Cert.LibNormalize Cert.LibBatchReads Cert.Spec

/-! ## The differences -/

theorem pay6_mat (p : Vec Ideal S1x256x256 .f32) : mat (k0_pay6 p) 0 = dCol (mat p 0) := by
  funext i j
  unfold k0_pay6
  exact congrArg₂ (· - ·)
    (windowLast_apply 0 p slices_S1x256x256_o0_0_0_S1x256x255 0 i j ⟨j.val, by omega⟩ (Nat.zero_add _).symm)
    (windowLast_apply 1 p slices_S1x256x256_o0_0_1_S1x256x255 0 i j ⟨j.val + 1, by omega⟩ (Nat.add_comm _ _))

theorem pay8_mat (g : Vec Ideal S1x256x256 .f32) : mat (k0_pay8 g) 0 = dCol (mat g 0) := by
  funext i j
  unfold k0_pay8
  exact congrArg₂ (· - ·)
    (windowLast_apply 0 g slices_S1x256x256_o0_0_0_S1x256x255 0 i j ⟨j.val, by omega⟩ (Nat.zero_add _).symm)
    (windowLast_apply 1 g slices_S1x256x256_o0_0_1_S1x256x255 0 i j ⟨j.val + 1, by omega⟩ (Nat.add_comm _ _))

theorem pay7_mat (p : Vec Ideal S1x256x256 .f32) : mat (k0_pay7 p) 0 = dRow (mat p 0) := by
  funext i j
  unfold k0_pay7
  exact congrArg₂ (· - ·)
    (windowMid_apply 0 p slices_S1x256x256_o0_0_0_S1x255x256 0 i j ⟨i.val, by omega⟩ (Nat.zero_add _).symm)
    (windowMid_apply 1 p slices_S1x256x256_o0_1_0_S1x255x256 0 i j ⟨i.val + 1, by omega⟩ (Nat.add_comm _ _))

theorem pay9_mat (g : Vec Ideal S1x256x256 .f32) : mat (k0_pay9 g) 0 = dRow (mat g 0) := by
  funext i j
  unfold k0_pay9
  exact congrArg₂ (· - ·)
    (windowMid_apply 0 g slices_S1x256x256_o0_0_0_S1x255x256 0 i j ⟨i.val, by omega⟩ (Nat.zero_add _).symm)
    (windowMid_apply 1 g slices_S1x256x256_o0_1_0_S1x255x256 0 i j ⟨i.val + 1, by omega⟩ (Nat.add_comm _ _))

/-! ## The four numbers -/

theorem pay10_eq (p g : Vec Ideal S1x256x256 .f32) : k0_pay10 p g (ix1 0) = colRows (mat p 0) (mat g 0) := by
  unfold k0_pay10
  refine (rowScoreV_apply (k0_pay6 p) (k0_pay8 g) _ _ 0).trans ?_
  rw [pay6_mat, pay8_mat]; rfl

theorem pay13_eq (p g : Vec Ideal S1x256x256 .f32) :
    k0_pay13 (k0_pay8 g) (k0_pay11 p) (k0_pay12 g) (ix1 0) = colCols (mat p 0) (mat g 0) := by
  unfold k0_pay13 k0_pay11 k0_pay12
  refine (colScoreV_apply (k0_pay6 p) (k0_pay8 g) _ _ 0).trans ?_
  rw [pay6_mat, pay8_mat]; rfl

theorem pay14_eq (p g : Vec Ideal S1x256x256 .f32) :
    k0_pay14 (k0_pay7 p) (k0_pay9 g) (ix1 0) = rowRows (mat p 0) (mat g 0) := by
  unfold k0_pay14
  refine (rowScoreV_apply (k0_pay7 p) (k0_pay9 g) _ _ 0).trans ?_
  rw [pay7_mat, pay9_mat]; rfl

theorem pay19_eq (p g : Vec Ideal S1x256x256 .f32) :
    k0_pay19 (k0_pay9 g) (k0_pay15 (k0_pay7 p)) (k0_pay16 (k0_pay9 g)) (Scalar.ofBits .f32 0x2B8CBCCC#32) (ix2 0 0)
      = rowCols (mat p 0) (mat g 0) := by
  unfold k0_pay19 k0_pay15 k0_pay16
  refine (Cert.LibColumn.shapeCast_a_a1_apply _ _ 0 0).trans ?_
  refine (colScoreV_apply (k0_pay7 p) (k0_pay9 g) _ _ 0).trans ?_
  rw [pay7_mat, pay9_mat]; rfl

/-! ## The lanes -/

theorem mask_0_0 : andi (cmpi .eq (iota .tc S8x128 32 [0] iota_S8x128_d0_w32) (broadcast S8x128 0#32))
    (cmpi .eq (iota .tc S8x128 32 [1] iota_S8x128_d1_w32) (broadcast S8x128 0#32)) (ix2 (0 : Fin 8) (0 : Fin 128)) = 1#1 := by decide

theorem mask_0_1 : andi (cmpi .eq (iota .tc S8x128 32 [0] iota_S8x128_d0_w32) (broadcast S8x128 0#32))
    (cmpi .eq (iota .tc S8x128 32 [1] iota_S8x128_d1_w32) (broadcast S8x128 0#32)) (ix2 (0 : Fin 8) (1 : Fin 128)) = 0#1 := by decide

theorem mask_0_2 : andi (cmpi .eq (iota .tc S8x128 32 [0] iota_S8x128_d0_w32) (broadcast S8x128 0#32))
    (cmpi .eq (iota .tc S8x128 32 [1] iota_S8x128_d1_w32) (broadcast S8x128 0#32)) (ix2 (0 : Fin 8) (2 : Fin 128)) = 0#1 := by decide

theorem mask_0_3 : andi (cmpi .eq (iota .tc S8x128 32 [0] iota_S8x128_d0_w32) (broadcast S8x128 0#32))
    (cmpi .eq (iota .tc S8x128 32 [1] iota_S8x128_d1_w32) (broadcast S8x128 0#32)) (ix2 (0 : Fin 8) (3 : Fin 128)) = 0#1 := by decide

theorem mask_1_0 : andi (cmpi .eq (iota .tc S8x128 32 [0] iota_S8x128_d0_w32) (broadcast S8x128 0#32))
    (cmpi .eq (iota .tc S8x128 32 [1] iota_S8x128_d1_w32) (broadcast S8x128 1#32)) (ix2 (0 : Fin 8) (0 : Fin 128)) = 0#1 := by decide

theorem mask_1_1 : andi (cmpi .eq (iota .tc S8x128 32 [0] iota_S8x128_d0_w32) (broadcast S8x128 0#32))
    (cmpi .eq (iota .tc S8x128 32 [1] iota_S8x128_d1_w32) (broadcast S8x128 1#32)) (ix2 (0 : Fin 8) (1 : Fin 128)) = 1#1 := by decide

theorem mask_1_2 : andi (cmpi .eq (iota .tc S8x128 32 [0] iota_S8x128_d0_w32) (broadcast S8x128 0#32))
    (cmpi .eq (iota .tc S8x128 32 [1] iota_S8x128_d1_w32) (broadcast S8x128 1#32)) (ix2 (0 : Fin 8) (2 : Fin 128)) = 0#1 := by decide

theorem mask_1_3 : andi (cmpi .eq (iota .tc S8x128 32 [0] iota_S8x128_d0_w32) (broadcast S8x128 0#32))
    (cmpi .eq (iota .tc S8x128 32 [1] iota_S8x128_d1_w32) (broadcast S8x128 1#32)) (ix2 (0 : Fin 8) (3 : Fin 128)) = 0#1 := by decide

theorem mask_2_0 : andi (cmpi .eq (iota .tc S8x128 32 [0] iota_S8x128_d0_w32) (broadcast S8x128 0#32))
    (cmpi .eq (iota .tc S8x128 32 [1] iota_S8x128_d1_w32) (broadcast S8x128 2#32)) (ix2 (0 : Fin 8) (0 : Fin 128)) = 0#1 := by decide

theorem mask_2_1 : andi (cmpi .eq (iota .tc S8x128 32 [0] iota_S8x128_d0_w32) (broadcast S8x128 0#32))
    (cmpi .eq (iota .tc S8x128 32 [1] iota_S8x128_d1_w32) (broadcast S8x128 2#32)) (ix2 (0 : Fin 8) (1 : Fin 128)) = 0#1 := by decide

theorem mask_2_2 : andi (cmpi .eq (iota .tc S8x128 32 [0] iota_S8x128_d0_w32) (broadcast S8x128 0#32))
    (cmpi .eq (iota .tc S8x128 32 [1] iota_S8x128_d1_w32) (broadcast S8x128 2#32)) (ix2 (0 : Fin 8) (2 : Fin 128)) = 1#1 := by decide

theorem mask_2_3 : andi (cmpi .eq (iota .tc S8x128 32 [0] iota_S8x128_d0_w32) (broadcast S8x128 0#32))
    (cmpi .eq (iota .tc S8x128 32 [1] iota_S8x128_d1_w32) (broadcast S8x128 2#32)) (ix2 (0 : Fin 8) (3 : Fin 128)) = 0#1 := by decide

theorem mask_3_0 : andi (cmpi .eq (iota .tc S8x128 32 [0] iota_S8x128_d0_w32) (broadcast S8x128 0#32))
    (cmpi .eq (iota .tc S8x128 32 [1] iota_S8x128_d1_w32) (broadcast S8x128 3#32)) (ix2 (0 : Fin 8) (0 : Fin 128)) = 0#1 := by decide

theorem mask_3_1 : andi (cmpi .eq (iota .tc S8x128 32 [0] iota_S8x128_d0_w32) (broadcast S8x128 0#32))
    (cmpi .eq (iota .tc S8x128 32 [1] iota_S8x128_d1_w32) (broadcast S8x128 3#32)) (ix2 (0 : Fin 8) (1 : Fin 128)) = 0#1 := by decide

theorem mask_3_2 : andi (cmpi .eq (iota .tc S8x128 32 [0] iota_S8x128_d0_w32) (broadcast S8x128 0#32))
    (cmpi .eq (iota .tc S8x128 32 [1] iota_S8x128_d1_w32) (broadcast S8x128 3#32)) (ix2 (0 : Fin 8) (2 : Fin 128)) = 0#1 := by decide

theorem mask_3_3 : andi (cmpi .eq (iota .tc S8x128 32 [0] iota_S8x128_d0_w32) (broadcast S8x128 0#32))
    (cmpi .eq (iota .tc S8x128 32 [1] iota_S8x128_d1_w32) (broadcast S8x128 3#32)) (ix2 (0 : Fin 8) (3 : Fin 128)) = 1#1 := by decide

/-- Row 0 of the tile, lane by lane: the masked copies of the other three numbers are zeros there. -/
theorem tile_lane0 (a b c : FVec Ideal S1 .f32) (d : FVec Ideal S1x1 .f32) :
    k0_pay5 (k0_pay17 a b c) k0_pay18 d (ix3 0 0 0) = a (ix1 0) := by
  unfold k0_pay5 k0_pay17 k0_pay18
  refine (shapeCast_ab_1ab_apply _ _ 0 0 _).trans ?_
  simp only [addf_apply, select_apply, broadcast_apply, Cert.LibRowReduce.broadcastTo_11_ab_apply,
    Cert.LibColumn.shapeCast_a_a1_apply]
  rw [mask_0_0, mask_1_0, mask_2_0, mask_3_0]
  simp only [select_one, select_zero]
  rw [show (FloatOps.ofBits (F := Ideal) FTy.f32 0#32 : EReal) = 0 from Ideal.ofBits_zero_f32]
  simp only [add_zero, zero_add]

theorem tile_lane1 (a b c : FVec Ideal S1 .f32) (d : FVec Ideal S1x1 .f32) :
    k0_pay5 (k0_pay17 a b c) k0_pay18 d (ix3 0 0 1) = b (ix1 0) := by
  unfold k0_pay5 k0_pay17 k0_pay18
  refine (shapeCast_ab_1ab_apply _ _ 0 0 _).trans ?_
  simp only [addf_apply, select_apply, broadcast_apply, Cert.LibRowReduce.broadcastTo_11_ab_apply,
    Cert.LibColumn.shapeCast_a_a1_apply]
  rw [mask_0_1, mask_1_1, mask_2_1, mask_3_1]
  simp only [select_one, select_zero]
  rw [show (FloatOps.ofBits (F := Ideal) FTy.f32 0#32 : EReal) = 0 from Ideal.ofBits_zero_f32]
  simp only [add_zero, zero_add]

theorem tile_lane2 (a b c : FVec Ideal S1 .f32) (d : FVec Ideal S1x1 .f32) :
    k0_pay5 (k0_pay17 a b c) k0_pay18 d (ix3 0 0 2) = c (ix1 0) := by
  unfold k0_pay5 k0_pay17 k0_pay18
  refine (shapeCast_ab_1ab_apply _ _ 0 0 _).trans ?_
  simp only [addf_apply, select_apply, broadcast_apply, Cert.LibRowReduce.broadcastTo_11_ab_apply,
    Cert.LibColumn.shapeCast_a_a1_apply]
  rw [mask_0_2, mask_1_2, mask_2_2, mask_3_2]
  simp only [select_one, select_zero]
  rw [show (FloatOps.ofBits (F := Ideal) FTy.f32 0#32 : EReal) = 0 from Ideal.ofBits_zero_f32]
  simp only [add_zero, zero_add]

theorem tile_lane3 (a b c : FVec Ideal S1 .f32) (d : FVec Ideal S1x1 .f32) :
    k0_pay5 (k0_pay17 a b c) k0_pay18 d (ix3 0 0 3) = d (ix2 0 0) := by
  unfold k0_pay5 k0_pay17 k0_pay18
  refine (shapeCast_ab_1ab_apply _ _ 0 0 _).trans ?_
  simp only [addf_apply, select_apply, broadcast_apply, Cert.LibRowReduce.broadcastTo_11_ab_apply,
    Cert.LibColumn.shapeCast_a_a1_apply]
  rw [mask_0_3, mask_1_3, mask_2_3, mask_3_3]
  simp only [select_one, select_zero]
  rw [show (FloatOps.ofBits (F := Ideal) FTy.f32 0#32 : EReal) = 0 from Ideal.ofBits_zero_f32]
  simp only [add_zero, zero_add]

end Cert.KernelIdeal.TileValue

end
-- ==== Proof.KernelAcc.lean ====
/- The accumulate step over the extended reals: a plane plus the sum of a block's 17 channel planes, entry by entry; the
   cleared plane is zero; so four steps from the cleared plane leave, at every entry, the sum over the four blocks of the sum
   over their 17 planes — and 4 blocks of 17 consecutive channels are the 68 channels, each once (only commutativity and
   associativity of +). -/
import proofs.«138720_j10213432230328_2_alg».proof.Proof.Gen.KernelIdeal.Skeleton
import proofs.«138720_j10213432230328_2_alg».proof.Proof.LibBatchReads
import Mathlib.Logic.Equiv.Fin.Basic
import Mathlib.Algebra.BigOperators.Fin

noncomputable section

namespace Cert.KernelIdeal.AccValue

open Idealize.ShloMosaic Idealize.ShloMosaic.ValueIdx Cert.KernelIdeal Cert.KernelIdeal.Gen Cert.LibBatchReads

theorem pay1_apply (i j : Fin 256) : k0_pay1 (F := Ideal) (ix3 0 i j) = 0 := by
  unfold k0_pay1
  exact (congrFun (shapeCast_self _ _) (ix3 0 i j)).trans Ideal.ofBits_zero_f32

theorem pay2_apply (i j : Fin 256) : k0_pay2 (F := Ideal) (ix3 0 i j) = 0 := by
  unfold k0_pay2
  exact (congrFun (shapeCast_self _ _) (ix3 0 i j)).trans Ideal.ofBits_zero_f32

theorem pay3_apply (v3 : Vec Ideal S1x256x256 .f32) (v4 : Vec Ideal S1x17x256x256 .f32) (i j : Fin 256) :
    k0_pay3 v3 v4 (ix3 0 i j) = v3 (ix3 0 i j) + ∑ k : Fin 17, v4 (ix4 0 k i j) := by
  unfold k0_pay3
  exact (congrFun (shapeCast_self _ _) (ix3 0 i j)).trans
    (congrArg (v3 (ix3 0 i j) + ·) (sumPlanes_apply v4 _ _ _ _ 0 i j))

theorem pay4_apply (v10 : Vec Ideal S1x256x256 .f32) (v11 : Vec Ideal S1x17x256x256 .f32) (i j : Fin 256) :
    k0_pay4 v10 v11 (ix3 0 i j) = v10 (ix3 0 i j) + ∑ k : Fin 17, v11 (ix4 0 k i j) := by
  unfold k0_pay4
  exact (congrFun (shapeCast_self _ _) (ix3 0 i j)).trans
    (congrArg (v10 (ix3 0 i j) + ·) (sumPlanes_apply v11 _ _ _ _ 0 i j))

/-- Four blocks of 17 consecutive indices are the 68 indices, each once. -/
theorem sum_blocks {M : Type*} [AddCommMonoid M] (f : Fin 68 → M) :
    ∑ r : Fin 4, ∑ k : Fin 17, f ⟨17 * r.val + k.val, by omega⟩ = ∑ c : Fin 68, f c := by
  rw [← Fintype.sum_prod_type']
  exact Fintype.sum_equiv (finProdFinEquiv : Fin 4 × Fin 17 ≃ Fin 68) _ _
    (fun x => congrArg f (Fin.ext (by simp [finProdFinEquiv]; omega)))

/-- Four accumulate steps from the cleared plane, on the first accumulator. -/
theorem chain3_apply (X : Fin 4 → Vec Ideal S1x17x256x256 .f32) (i j : Fin 256) :
    k0_pay3 (k0_pay3 (k0_pay3 (k0_pay3 k0_pay1 (X 0)) (X 1)) (X 2)) (X 3) (ix3 0 i j)
      = ∑ r : Fin 4, ∑ k : Fin 17, X r (ix4 0 k i j) := by
  rw [pay3_apply, pay3_apply, pay3_apply, pay3_apply, pay1_apply, zero_add, Fin.sum_univ_four]

/-- The same on the second accumulator. -/
theorem chain4_apply (X : Fin 4 → Vec Ideal S1x17x256x256 .f32) (i j : Fin 256) :
    k0_pay4 (k0_pay4 (k0_pay4 (k0_pay4 k0_pay2 (X 0)) (X 1)) (X 2)) (X 3) (ix3 0 i j)
      = ∑ r : Fin 4, ∑ k : Fin 17, X r (ix4 0 k i j) := by
  rw [pay4_apply, pay4_apply, pay4_apply, pay4_apply, pay2_apply, zero_add, Fin.sum_univ_four]

end Cert.KernelIdeal.AccValue

end
-- ==== Proof.KernelRun.lean ====
/- The first program's run read as values over the extended reals.
   The grid walks the 16 batches, four points per batch, one block of 17 channels per point. Within a batch the two
   accumulator planes go from cleared to the sum of the four blocks' channel sums, that is the batch's plane of Spec (P from
   the first input, G from the second); at the batch's last point the tile is computed from them and written back to block b
   of the [16, 8, 128] result array; the four blocks (b, 0, 0) cover that array. The host lines after the region read lanes
   0..3 of row 0 of every batch, average each over the batches and subtract the four averages from zero, one after the
   other: Spec's loss. -/
import proofs.«138720_j10213432230328_2_alg».proof.Proof.Gen.KernelIdeal.Frame
import proofs.«138720_j10213432230328_2_alg».proof.Proof.KernelPieces
import proofs.«138720_j10213432230328_2_alg».proof.Proof.KernelTile
import proofs.«138720_j10213432230328_2_alg».proof.Proof.KernelAcc
import Idealize.ShloMosaic.Lib.Pipeline.Value
import Idealize.ShloMosaic.Lib.StableHlo.Run
import Idealize.ShloMosaic.Lib.Tactic

noncomputable section

open Idealize.ShloMosaic Idealize.ShloMosaic.TcCoe Idealize.ShloMosaic.ValueIdx Idealize.SL.Sem
open Idealize.ShloMosaic.Pipeline (Dat)

namespace Cert.KernelIdeal.RunValue

open Cert.KernelIdeal Cert.KernelIdeal.Gen Cert.KernelIdeal.Pieces Cert.KernelIdeal.TileValue Cert.KernelIdeal.AccValue
open Cert.Spec Cert.LibNormalize

variable (m : (ℓ : Loc nD τ sig) → Buf (Elt Ideal) ℓ) (ρ : Dev nD → PrngReg)

/-! ## What the accumulators and the tile hold, point by point -/

/-- After the first point of a batch: the cleared plane plus the first block. -/
theorem stepA0 (c : Dev nD) (n : ℕ) (hn : n < cfg0.N) (h0 : n % 4 = 0) :
    (outsAt0 m c n hn).2.1 = k0_pay3 k0_pay1 (iblk m c 0 ⟨n, hn⟩) := by
  have h1 : ¬n % 4 = 3 := by omega
  have e := congrArg (fun x => x.2.1) (outsAt0_A m c ⟨n, hn⟩ h0 h1)
  dsimp only at e
  rw [e]
  exact sout_A_0 c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) scM0_1 (Memref.isWhole_whole _) _ _ (iblk m c 0 ⟨n, hn⟩) (iblk m c 1 ⟨n, hn⟩)

theorem stepA1 (c : Dev nD) (n : ℕ) (hn : n < cfg0.N) (h0 : n % 4 = 0) :
    (outsAt0 m c n hn).2.2 = k0_pay4 k0_pay2 (iblk m c 1 ⟨n, hn⟩) := by
  have h1 : ¬n % 4 = 3 := by omega
  have e := congrArg (fun x => x.2.2) (outsAt0_A m c ⟨n, hn⟩ h0 h1)
  dsimp only at e
  rw [e]
  exact sout_A_1 c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) scM0_1 (Memref.isWhole_whole _) _ _ (iblk m c 0 ⟨n, hn⟩) (iblk m c 1 ⟨n, hn⟩)

/-- After a middle point: one more block on what the point before left. -/
theorem stepB0 (c : Dev nD) (n k : ℕ) (hk : k = n + 1) (hlt : k < cfg0.N) (h0 : ¬k % 4 = 0) (h1 : ¬k % 4 = 3) :
    (outsAt0 m c k hlt).2.1 = k0_pay3 (outsAt0 m c n (by omega)).2.1 (iblk m c 0 ⟨k, hlt⟩) := by
  subst hk
  have e := congrArg (fun x => x.2.1) (outsAt0_B m c ⟨n + 1, hlt⟩ h0 h1)
  dsimp only at e
  rw [e]
  exact sout_B_0 c (grid0.coords ⟨n + 1, hlt⟩) (ms0_0 ⟨n + 1, hlt⟩) (hs0_0 ⟨n + 1, hlt⟩) (ms0_1 ⟨n + 1, hlt⟩) (hs0_1 ⟨n + 1, hlt⟩) (ms0_2 ⟨n + 1, hlt⟩) (hs0_2 ⟨n + 1, hlt⟩) scM0_0 (Memref.isWhole_whole _) scM0_1 (Memref.isWhole_whole _) _ _ (iblk m c 0 ⟨n + 1, hlt⟩) (iblk m c 1 ⟨n + 1, hlt⟩) _ _

theorem stepB1 (c : Dev nD) (n k : ℕ) (hk : k = n + 1) (hlt : k < cfg0.N) (h0 : ¬k % 4 = 0) (h1 : ¬k % 4 = 3) :
    (outsAt0 m c k hlt).2.2 = k0_pay4 (outsAt0 m c n (by omega)).2.2 (iblk m c 1 ⟨k, hlt⟩) := by
  subst hk
  have e := congrArg (fun x => x.2.2) (outsAt0_B m c ⟨n + 1, hlt⟩ h0 h1)
  dsimp only at e
  rw [e]
  exact sout_B_1 c (grid0.coords ⟨n + 1, hlt⟩) (ms0_0 ⟨n + 1, hlt⟩) (hs0_0 ⟨n + 1, hlt⟩) (ms0_1 ⟨n + 1, hlt⟩) (hs0_1 ⟨n + 1, hlt⟩) (ms0_2 ⟨n + 1, hlt⟩) (hs0_2 ⟨n + 1, hlt⟩) scM0_0 (Memref.isWhole_whole _) scM0_1 (Memref.isWhole_whole _) _ _ (iblk m c 0 ⟨n + 1, hlt⟩) (iblk m c 1 ⟨n + 1, hlt⟩) _ _

/-- After the last point of a batch: the tile of the completed planes. -/
theorem stepC (c : Dev nD) (n k : ℕ) (hk : k = n + 1) (hlt : k < cfg0.N) (h0 : ¬k % 4 = 0) (h1 : k % 4 = 3) :
    (outsAt0 m c k hlt).1 = tileOf (k0_pay3 (outsAt0 m c n (by omega)).2.1 (iblk m c 0 ⟨k, hlt⟩))
      (k0_pay4 (outsAt0 m c n (by omega)).2.2 (iblk m c 1 ⟨k, hlt⟩)) := by
  subst hk
  have e := congrArg (fun x => x.1) (outsAt0_C m c ⟨n + 1, hlt⟩ h0 h1)
  dsimp only at e
  rw [e]
  exact out_C_2 c (grid0.coords ⟨n + 1, hlt⟩) (ms0_0 ⟨n + 1, hlt⟩) (hs0_0 ⟨n + 1, hlt⟩) (ms0_1 ⟨n + 1, hlt⟩) (hs0_1 ⟨n + 1, hlt⟩) (ms0_2 ⟨n + 1, hlt⟩) (hs0_2 ⟨n + 1, hlt⟩) scM0_0 (Memref.isWhole_whole _) scM0_1 (Memref.isWhole_whole _) _ _ (iblk m c 0 ⟨n + 1, hlt⟩) (iblk m c 1 ⟨n + 1, hlt⟩) _ _

/-- The first accumulator after the four points that start at point n. -/
def planeP (c : Dev nD) (n : ℕ) (h : n + 3 < cfg0.N) : Vec Ideal S1x256x256 .f32 :=
  k0_pay3 (k0_pay3 (k0_pay3 (k0_pay3 k0_pay1 (iblk m c 0 ⟨n, by omega⟩)) (iblk m c 0 ⟨n + 1, by omega⟩))
    (iblk m c 0 ⟨n + 2, by omega⟩)) (iblk m c 0 ⟨n + 3, h⟩)

/-- The second accumulator after the same four points. -/
def planeG (c : Dev nD) (n : ℕ) (h : n + 3 < cfg0.N) : Vec Ideal S1x256x256 .f32 :=
  k0_pay4 (k0_pay4 (k0_pay4 (k0_pay4 k0_pay2 (iblk m c 1 ⟨n, by omega⟩)) (iblk m c 1 ⟨n + 1, by omega⟩))
    (iblk m c 1 ⟨n + 2, by omega⟩)) (iblk m c 1 ⟨n + 3, h⟩)

theorem planeP_congr (c : Dev nD) (n n' : ℕ) (e : n = n') (h : n + 3 < cfg0.N) (h' : n' + 3 < cfg0.N) :
    planeP m c n h = planeP m c n' h' := by subst e; rfl

theorem planeG_congr (c : Dev nD) (n n' : ℕ) (e : n = n') (h : n + 3 < cfg0.N) (h' : n' + 3 < cfg0.N) :
    planeG m c n h = planeG m c n' h' := by subst e; rfl

/-- The tile the last point of a batch leaves is the tile of the batch's two completed planes. -/
theorem tile_eq (c : Dev nD) (n : ℕ) (h : n + 3 < cfg0.N) (h0 : n % 4 = 0) :
    (outsAt0 m c (n + 3) h).1 = tileOf (planeP m c n h) (planeG m c n h) := by
  rw [stepC m c (n + 2) (n + 3) rfl h (by omega) (by omega),
    stepB0 m c (n + 1) (n + 2) rfl (by omega) (by omega) (by omega),
    stepB1 m c (n + 1) (n + 2) rfl (by omega) (by omega) (by omega),
    stepB0 m c n (n + 1) rfl (by omega) (by omega) (by omega),
    stepB1 m c n (n + 1) rfl (by omega) (by omega) (by omega),
    stepA0 m c n (by omega) h0, stepA1 m c n (by omega) h0]
  rfl

/-! ## The blocks the windows stage -/

theorem idx_facts0 : ∀ t : Fin cfg0.N, win0_0.index t (0 : Fin 4) = t.val / 4 ∧ win0_0.index t (1 : Fin 4) = t.val % 4
    ∧ win0_0.index t (2 : Fin 4) = 0 ∧ win0_0.index t (3 : Fin 4) = 0 :=
  (by decide +kernel : ∀ t : Fin grid0.N, _)

theorem idx_facts1 : ∀ t : Fin cfg0.N, win0_1.index t (0 : Fin 4) = t.val / 4 ∧ win0_1.index t (1 : Fin 4) = t.val % 4
    ∧ win0_1.index t (2 : Fin 4) = 0 ∧ win0_1.index t (3 : Fin 4) = 0 :=
  (by decide +kernel : ∀ t : Fin grid0.N, _)

theorem idx_facts2 : ∀ t : Fin cfg0.N, win0_2.index t (0 : Fin 3) = t.val / 4 ∧ win0_2.index t (1 : Fin 3) = 0
    ∧ win0_2.index t (2 : Fin 3) = 0 :=
  (by decide +kernel : ∀ t : Fin grid0.N, _)

/-- Point t's block of the first input: batch t / 4, channels 17 (t mod 4) … 17 (t mod 4) + 16. -/
theorem iblk0_apply (c : Dev nD) (t : Fin cfg0.N) (k : Fin 17) (i j : Fin 256) (b : Fin 16) (ch : Fin 68)
    (hb : b.val = t.val / 4) (hch : ch.val = 17 * (t.val % 4) + k.val) :
    (iblk m c 0 t : Vec Ideal S1x17x256x256 .f32) (ix4 0 k i j) = m ((c : Thread nD τ).loc main_arg0) (ix4 b ch i j) := by
  obtain ⟨e0, e1, e2, e3⟩ := idx_facts0 t
  show V m c main_arg0 (((cfg0.win 0).blk t).view.emb (ix4 0 k i j)) = _
  refine congrArg (m ((c : Thread nD τ).loc main_arg0)) ?_
  funext a
  apply Fin.ext
  match a with
  | ⟨0, _⟩ => show win0_0.index t (0 : Fin 4) * 1 + 1 * (0 : ℕ) = b.val; omega
  | ⟨1, _⟩ => show win0_0.index t (1 : Fin 4) * 17 + 1 * k.val = ch.val; omega
  | ⟨2, _⟩ => show win0_0.index t (2 : Fin 4) * 256 + 1 * i.val = i.val; omega
  | ⟨3, _⟩ => show win0_0.index t (3 : Fin 4) * 256 + 1 * j.val = j.val; omega

/-- The same of the second input. -/
theorem iblk1_apply (c : Dev nD) (t : Fin cfg0.N) (k : Fin 17) (i j : Fin 256) (b : Fin 16) (ch : Fin 68)
    (hb : b.val = t.val / 4) (hch : ch.val = 17 * (t.val % 4) + k.val) :
    (iblk m c 1 t : Vec Ideal S1x17x256x256 .f32) (ix4 0 k i j) = m ((c : Thread nD τ).loc main_arg1) (ix4 b ch i j) := by
  obtain ⟨e0, e1, e2, e3⟩ := idx_facts1 t
  show V m c main_arg1 (((cfg0.win 1).blk t).view.emb (ix4 0 k i j)) = _
  refine congrArg (m ((c : Thread nD τ).loc main_arg1)) ?_
  funext a
  apply Fin.ext
  match a with
  | ⟨0, _⟩ => show win0_1.index t (0 : Fin 4) * 1 + 1 * (0 : ℕ) = b.val; omega
  | ⟨1, _⟩ => show win0_1.index t (1 : Fin 4) * 17 + 1 * k.val = ch.val; omega
  | ⟨2, _⟩ => show win0_1.index t (2 : Fin 4) * 256 + 1 * i.val = i.val; omega
  | ⟨3, _⟩ => show win0_1.index t (3 : Fin 4) * 256 + 1 * j.val = j.val; omega

/-! ## The completed planes are Spec's planes -/

theorem planeP_mat (c : Dev nD) (q : Fin 16) (h : 4 * q.val + 3 < cfg0.N) :
    mat (planeP m c (4 * q.val) h) 0 = plane (m ((c : Thread nD τ).loc main_arg0)) q := by
  funext i j
  have hN : grid0.N = 64 := N_0
  refine (chain3_apply (fun r : Fin 4 => (iblk m c 0 ⟨4 * q.val + r.val, by have := r.isLt; omega⟩ : Vec Ideal S1x17x256x256 .f32)) i j).trans ?_
  unfold plane
  rw [← sum_blocks]
  refine Finset.sum_congr rfl fun r _ => Finset.sum_congr rfl fun k _ => ?_
  exact iblk0_apply m c ⟨4 * q.val + r.val, by have := r.isLt; omega⟩ k i j q ⟨17 * r.val + k.val, by omega⟩
    (by have := r.isLt; show q.val = (4 * q.val + r.val) / 4; omega)
    (by have := r.isLt; show 17 * r.val + k.val = 17 * ((4 * q.val + r.val) % 4) + k.val; omega)

theorem planeG_mat (c : Dev nD) (q : Fin 16) (h : 4 * q.val + 3 < cfg0.N) :
    mat (planeG m c (4 * q.val) h) 0 = plane (m ((c : Thread nD τ).loc main_arg1)) q := by
  funext i j
  have hN : grid0.N = 64 := N_0
  refine (chain4_apply (fun r : Fin 4 => (iblk m c 1 ⟨4 * q.val + r.val, by have := r.isLt; omega⟩ : Vec Ideal S1x17x256x256 .f32)) i j).trans ?_
  unfold plane
  rw [← sum_blocks]
  refine Finset.sum_congr rfl fun r _ => Finset.sum_congr rfl fun k _ => ?_
  exact iblk1_apply m c ⟨4 * q.val + r.val, by have := r.isLt; omega⟩ k i j q ⟨17 * r.val + k.val, by omega⟩
    (by have := r.isLt; show q.val = (4 * q.val + r.val) / 4; omega)
    (by have := r.isLt; show 17 * r.val + k.val = 17 * ((4 * q.val + r.val) % 4) + k.val; omega)

/-! ## The result array of the region -/

/-- What the region's result array ends holding: block b is the tile of batch b's completed planes. -/
def tiles (c : Dev nD) : Buf (Elt Ideal) ((c : Thread nD τ).loc main_v0) :=
  (fun idx : S16x8x128.Idx =>
    tileOf
      (planeP m c (4 * (idx 0).val) (by
        have h : (idx 0).val < 16 := (idx 0).isLt
        have hN : grid0.N = 64 := N_0
        show 4 * (idx 0).val + 3 < grid0.N
        omega))
      (planeG m c (4 * (idx 0).val) (by
        have h : (idx 0).val < 16 := (idx 0).isLt
        have hN : grid0.N = 64 := N_0
        show 4 * (idx 0).val + 3 < grid0.N
        omega))
      (ix3 (0 : Fin 1) (⟨(idx 1).val, (idx 1).isLt⟩ : Fin 8) (⟨(idx 2).val, (idx 2).isLt⟩ : Fin 128)))

/-- What the last point of a batch writes back is that batch's block of `tiles`. -/
theorem flushed_eq (c : Dev nD) (t : Fin cfg0.N) (hf : (cfg0.win 2).flush t = true) :
    (dats m 0 c).flushed 2 t = ((cfg0.win 2).blk t).view.read (Elt Ideal) (tiles m c) := by
  have hN : grid0.N = 64 := N_0
  have h3 : t.val % 4 = 3 := (flush0_2 t).mp hf
  obtain ⟨tv, tlt⟩ := t
  obtain ⟨n, rfl⟩ : ∃ n, tv = n + 3 := ⟨tv - 3, by have : tv % 4 = 3 := h3; omega⟩
  have h0 : n % 4 = 0 := by have : (n + 3) % 4 = 3 := h3; omega
  obtain ⟨e0, e1, e2⟩ := idx_facts2 ⟨n + 3, tlt⟩
  show (cfg0.win 2).cut (grid0.coords ⟨n + 3, tlt⟩) ((dats m 0 c).after 2 ⟨n + 3, tlt⟩) = _
  rw [after0_2]
  show (outsAt0 m c (n + 3) tlt).1 = _
  rw [tile_eq m c n tlt h0]
  funext y
  show tileOf (planeP m c n tlt) (planeG m c n tlt) y = tiles m c (((cfg0.win 2).blk ⟨n + 3, tlt⟩).view.emb y)
  have hy0 : (y 0).val < 1 := (y 0).isLt
  have z0 : ((((cfg0.win 2).blk ⟨n + 3, tlt⟩).view.emb y : S16x8x128.Idx) 0).val = (n + 3) / 4 := by
    show win0_2.index ⟨n + 3, tlt⟩ (0 : Fin 3) * 1 + 1 * (y 0).val = _
    rw [e0]; show (n + 3) / 4 * 1 + 1 * (y 0).val = _; omega
  have z1 : ((((cfg0.win 2).blk ⟨n + 3, tlt⟩).view.emb y : S16x8x128.Idx) 1).val = (y 1).val := by
    show win0_2.index ⟨n + 3, tlt⟩ (1 : Fin 3) * 8 + 1 * (y 1).val = _
    rw [e1]; omega
  have z2 : ((((cfg0.win 2).blk ⟨n + 3, tlt⟩).view.emb y : S16x8x128.Idx) 2).val = (y 2).val := by
    show win0_2.index ⟨n + 3, tlt⟩ (2 : Fin 3) * 128 + 1 * (y 2).val = _
    rw [e2]; omega
  unfold tiles
  dsimp only
  rw [planeP_congr m c (4 * _) n (by rw [z0]; omega) _ tlt, planeG_congr m c (4 * _) n (by rw [z0]; omega) _ tlt]
  refine congrArg (tileOf (planeP m c n tlt) (planeG m c n tlt)) ?_
  funext a
  apply Fin.ext
  match a with
  | ⟨0, _⟩ => show (y 0).val = 0; omega
  | ⟨1, _⟩ => exact z1.symm
  | ⟨2, _⟩ => exact z2.symm

/-- An index of the result array lies in point t's block iff each coordinate lies in the block's range. -/
theorem mem_blk (t : Fin cfg0.N) (i : S16x8x128.Idx) :
    i ∈ ((cfg0.win 2).blk t).view.set ↔ ∀ a : Fin 3, win0_2.index t a * S1x8x128.size a ≤ (i a).val
      ∧ (i a).val < win0_2.index t a * S1x8x128.size a + S1x8x128.size a := by
  show i ∈ ((View.whole main_v0).slice (win0_2.rect t)).set ↔ _
  rw [View.set_slice_whole, Rect.mem_set_unit]
  exact Iff.rfl

/-- So the region's result array ends at `tiles`: the sixteen blocks written back cover it. -/
theorem final (c : Dev nD) : (dats m 0 c).arrAt 2 cfg0.N = tiles m c :=
  (dats m 0 c).arrAt_eq_of_cover 2 (tiles m c) (flushed_eq m c) fun i => by
    have hN : grid0.N = 64 := N_0
    have h0 : ((i : S16x8x128.Idx) 0).val < 16 := ((i : S16x8x128.Idx) 0).isLt
    have h1 : ((i : S16x8x128.Idx) 1).val < 8 := ((i : S16x8x128.Idx) 1).isLt
    have h2 : ((i : S16x8x128.Idx) 2).val < 128 := ((i : S16x8x128.Idx) 2).isLt
    refine ⟨⟨4 * ((i : S16x8x128.Idx) 0).val + 3, by show _ < grid0.N; omega⟩, (flush0_2 _).mpr (by show (4 * _ + 3) % 4 = 3; omega), ?_⟩
    rw [mem_blk]
    obtain ⟨e0, e1, e2⟩ := idx_facts2 ⟨4 * ((i : S16x8x128.Idx) 0).val + 3, by show _ < grid0.N; omega⟩
    intro a
    match a with
    | ⟨0, _⟩ =>
      show win0_2.index _ (0 : Fin 3) * 1 ≤ ((i : S16x8x128.Idx) 0).val ∧ ((i : S16x8x128.Idx) 0).val < win0_2.index _ (0 : Fin 3) * 1 + 1
      rw [e0]; show (4 * ((i : S16x8x128.Idx) 0).val + 3) / 4 * 1 ≤ _ ∧ _ < (4 * ((i : S16x8x128.Idx) 0).val + 3) / 4 * 1 + 1; omega
    | ⟨1, _⟩ =>
      show win0_2.index _ (1 : Fin 3) * 8 ≤ ((i : S16x8x128.Idx) 1).val ∧ ((i : S16x8x128.Idx) 1).val < win0_2.index _ (1 : Fin 3) * 8 + 8
      rw [e1]; omega
    | ⟨2, _⟩ =>
      show win0_2.index _ (2 : Fin 3) * 128 ≤ ((i : S16x8x128.Idx) 2).val ∧ ((i : S16x8x128.Idx) 2).val < win0_2.index _ (2 : Fin 3) * 128 + 128
      rw [e2]; omega

/-! ## Row 0 of every block holds the batch's four scores -/

theorem tiles_lane0 (c : Dev nD) (b : Fin 16) :
    tiles m c (ix3 b 0 0) = colRows (plane (m ((c : Thread nD τ).loc main_arg0)) b) (plane (m ((c : Thread nD τ).loc main_arg1)) b) := by
  have hN : grid0.N = 64 := N_0
  have hb : 4 * b.val + 3 < cfg0.N := by show _ < grid0.N; omega
  show tileOf (planeP m c (4 * b.val) hb) (planeG m c (4 * b.val) hb) (ix3 0 0 0) = _
  unfold tileOf
  rw [tile_lane0, pay10_eq, planeP_mat m c b hb, planeG_mat m c b hb]

theorem tiles_lane1 (c : Dev nD) (b : Fin 16) :
    tiles m c (ix3 b 0 1) = colCols (plane (m ((c : Thread nD τ).loc main_arg0)) b) (plane (m ((c : Thread nD τ).loc main_arg1)) b) := by
  have hN : grid0.N = 64 := N_0
  have hb : 4 * b.val + 3 < cfg0.N := by show _ < grid0.N; omega
  show tileOf (planeP m c (4 * b.val) hb) (planeG m c (4 * b.val) hb) (ix3 0 0 1) = _
  unfold tileOf
  rw [tile_lane1, pay13_eq, planeP_mat m c b hb, planeG_mat m c b hb]

theorem tiles_lane2 (c : Dev nD) (b : Fin 16) :
    tiles m c (ix3 b 0 2) = rowRows (plane (m ((c : Thread nD τ).loc main_arg0)) b) (plane (m ((c : Thread nD τ).loc main_arg1)) b) := by
  have hN : grid0.N = 64 := N_0
  have hb : 4 * b.val + 3 < cfg0.N := by show _ < grid0.N; omega
  show tileOf (planeP m c (4 * b.val) hb) (planeG m c (4 * b.val) hb) (ix3 0 0 2) = _
  unfold tileOf
  rw [tile_lane2, pay14_eq, planeP_mat m c b hb, planeG_mat m c b hb]

theorem tiles_lane3 (c : Dev nD) (b : Fin 16) :
    tiles m c (ix3 b 0 3) = rowCols (plane (m ((c : Thread nD τ).loc main_arg0)) b) (plane (m ((c : Thread nD τ).loc main_arg1)) b) := by
  have hN : grid0.N = 64 := N_0
  have hb : 4 * b.val + 3 < cfg0.N := by show _ < grid0.N; omega
  show tileOf (planeP m c (4 * b.val) hb) (planeG m c (4 * b.val) hb) (ix3 0 0 3) = _
  unfold tileOf
  rw [tile_lane3, pay19_eq, planeP_mat m c b hb, planeG_mat m c b hb]

/-! ## The host lines after the region -/

/-- Lane l of row 0 of every batch, as the host slices and reshapes it: entry b is the array at (b, 0, l). -/
theorem lane_apply (O : S16x8x128.Idx → EReal) (l : ℕ) (k : Fin 128) (hk : k.val = l)
    (hs : S16x8x128.Slices ![0, 0, l] S16x1x1) (hc : S16x1x1.ShapeCasts S16) (b : Fin 16) :
    shapeCast S16 (extractStridedSlice S16x1x1 ![0, 0, l] O hs) hc (ix1 b) = O (ix3 b 0 k) :=
  (shapeCast_apply _ hc (ix1 b) (ix3 b (0 : Fin 1) (0 : Fin 1)) (by
      rw [Shape.rowMajor_val_three, Shape.rowMajor_val_one]
      show (b.val * 1 + 0) * 1 + 0 = b.val
      omega)).trans
    (extractStridedSlice_apply ![0, 0, l] O hs (ix3 b (0 : Fin 1) (0 : Fin 1)) (ix3 b 0 k) fun a =>
      match a with
      | ⟨0, _⟩ => by show b.val = 0 + b.val; omega
      | ⟨1, _⟩ => by show (0 : ℕ) = 0 + 0; rfl
      | ⟨2, _⟩ => by show k.val = l + 0; omega)

set_option maxHeartbeats 1000000 in
/-- The result cell after the host lines: the loss of the two inputs. -/
theorem tail_eq (c : Dev nD) :
    Pipeline.afterTail₀ cfgs (dats m) 0 (V0 m) [hostOps1] c main_v20
      = (fun _ => loss (m ((c : Thread nD τ).loc main_arg0)) (m ((c : Thread nD τ).loc main_arg1)) : S_.Idx → EReal) := by
  unfold Pipeline.afterTail₀
  have hW := Pipeline.withArrays_arr (cfgs 0).spec launch0.win.arr_inj c (V0 m c) (fun w => (dats m 0 c).arrAt w (cfgs 0).N) 2
  generalize Pipeline.withArrays (cfgs 0).spec c (V0 m c) (fun w => (dats m 0 c).arrAt w (cfgs 0).N) = W at hW ⊢
  show StableHlo.after hostOps1 W (Proc.devRef .tc main_v20) = _
  after_results
  rw [show W (Proc.devRef .tc main_v0) = tiles m c from hW.trans (final m c)]
  funext j
  refine (congrArg₂ (· - ·) (congrArg₂ (· - ·) (congrArg₂ (· - ·)
    (congrArg Neg.neg (meanH_apply _ _ _ c16 (h := reducesTo_S16_S_d0) (u := h_S_) Ideal.ofBits_zero_f32 rfl j))
    (meanH_apply _ _ _ c16 (h := reducesTo_S16_S_d0) (u := h_S_) Ideal.ofBits_zero_f32 rfl j))
    (meanH_apply _ _ _ c16 (h := reducesTo_S16_S_d0) (u := h_S_) Ideal.ofBits_zero_f32 rfl j))
    (meanH_apply _ _ _ c16 (h := reducesTo_S16_S_d0) (u := h_S_) Ideal.ofBits_zero_f32 rfl j)).trans ?_
  unfold loss mean16
  refine congrArg₂ (· - ·) (congrArg₂ (· - ·) (congrArg₂ (· - ·)
    (congrArg Neg.neg (congrArg (Ideal.div · c16) (Finset.sum_congr rfl fun b _ => ?_)))
    (congrArg (Ideal.div · c16) (Finset.sum_congr rfl fun b _ => ?_)))
    (congrArg (Ideal.div · c16) (Finset.sum_congr rfl fun b _ => ?_)))
    (congrArg (Ideal.div · c16) (Finset.sum_congr rfl fun b _ => ?_))
  · exact (lane_apply (tiles m c) 0 0 rfl _ _ b).trans (tiles_lane0 m c b)
  · exact (lane_apply (tiles m c) 1 1 rfl _ _ b).trans (tiles_lane1 m c b)
  · exact (lane_apply (tiles m c) 2 2 rfl _ _ b).trans (tiles_lane2 m c b)
  · exact (lane_apply (tiles m c) 3 3 rfl _ _ b).trans (tiles_lane3 m c b)

/-! ## The run -/

/-- Every weakly fair execution of the first program terminates with its result at the loss of its two inputs, the inputs
    unchanged. -/
theorem run : θ_run defs (onTc (τ := τ) (main (F := Ideal))) ⟨m, fun _ => 0, ρ⟩ fun r => ∀ c : Dev nD,
      r.2.mem ((c.tc : Thread nD τ).loc main_v20)
        = (fun _ => loss (m ((c.tc : Thread nD τ).loc main_arg0)) (m ((c.tc : Thread nD τ).loc main_arg1)) : S_.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v20 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.RunValue

end
-- ==== Proof.RefSide.lean ====
/- The second program read as values over the extended reals: its channel sums are Spec's planes, its slices and differences
   Spec's column and row differences, its four scaled-product sums Spec's four scores per batch, and its last lines the
   means and their combination — equal to Spec's loss because subtracting two numbers in turn is adding the sum of their
   negatives. -/
import proofs.«138720_j10213432230328_2_alg».proof.Proof.Gen.ReferenceIdeal.Read
import proofs.«138720_j10213432230328_2_alg».proof.Proof.Spec

noncomputable section

namespace Cert.RefSide

open Idealize.ShloMosaic Idealize.ShloMosaic.ValueIdx
open Cert.ReferenceIdeal Cert.ReferenceIdeal.Gen Cert.ReferenceIdeal.Read
open Cert.Spec Cert.LibNormalize Cert.LibBatchReads

abbrev Arr : Type := (⟨S16x68x256x256, .f32⟩ : BufTy).Contents (Elt Ideal)

/-! ## The planes and their differences -/

theorem v0_apply (x0 : Arr) (b : Fin 16) (i j : Fin 256) : val_main_v0 (F := Ideal) x0 (ix3 b i j) = plane x0 b i j := by
  unfold val_main_v0
  show Ideal.hostReduceAdd _ x0 (Ideal.ofBits .f32 0x00000000#32) (ix3 b i j) = _
  rw [hostSumPlanes_apply, Ideal.ofBits_zero_f32, zero_add]
  rfl

theorem v1_apply (x1 : Arr) (b : Fin 16) (i j : Fin 256) : val_main_v1 (F := Ideal) x1 (ix3 b i j) = plane x1 b i j := by
  unfold val_main_v1
  show Ideal.hostReduceAdd _ x1 (Ideal.ofBits .f32 0x00000000#32) (ix3 b i j) = _
  rw [hostSumPlanes_apply, Ideal.ofBits_zero_f32, zero_add]
  rfl

theorem v4_mat (x0 : Arr) (b : Fin 16) : mat (val_main_v4 (F := Ideal) x0) b = dCol (plane x0 b) := by
  funext i j
  exact congrArg₂ (· - ·)
    ((windowLast_apply 0 (val_main_v0 (F := Ideal) x0) _ b i j ⟨j.val, by omega⟩ (Nat.zero_add _).symm).trans (v0_apply x0 b i _))
    ((windowLast_apply 1 (val_main_v0 (F := Ideal) x0) _ b i j ⟨j.val + 1, by omega⟩ (Nat.add_comm _ _)).trans (v0_apply x0 b i _))

theorem v10_mat (x1 : Arr) (b : Fin 16) : mat (val_main_v10 (F := Ideal) x1) b = dCol (plane x1 b) := by
  funext i j
  exact congrArg₂ (· - ·)
    ((windowLast_apply 0 (val_main_v1 (F := Ideal) x1) _ b i j ⟨j.val, by omega⟩ (Nat.zero_add _).symm).trans (v1_apply x1 b i _))
    ((windowLast_apply 1 (val_main_v1 (F := Ideal) x1) _ b i j ⟨j.val + 1, by omega⟩ (Nat.add_comm _ _)).trans (v1_apply x1 b i _))

theorem v7_mat (x0 : Arr) (b : Fin 16) : mat (val_main_v7 (F := Ideal) x0) b = dRow (plane x0 b) := by
  funext i j
  exact congrArg₂ (· - ·)
    ((windowMid_apply 0 (val_main_v0 (F := Ideal) x0) _ b i j ⟨i.val, by omega⟩ (Nat.zero_add _).symm).trans (v0_apply x0 b _ j))
    ((windowMid_apply 1 (val_main_v0 (F := Ideal) x0) _ b i j ⟨i.val + 1, by omega⟩ (Nat.add_comm _ _)).trans (v0_apply x0 b _ j))

theorem v13_mat (x1 : Arr) (b : Fin 16) : mat (val_main_v13 (F := Ideal) x1) b = dRow (plane x1 b) := by
  funext i j
  exact congrArg₂ (· - ·)
    ((windowMid_apply 0 (val_main_v1 (F := Ideal) x1) _ b i j ⟨i.val, by omega⟩ (Nat.zero_add _).symm).trans (v1_apply x1 b _ j))
    ((windowMid_apply 1 (val_main_v1 (F := Ideal) x1) _ b i j ⟨i.val + 1, by omega⟩ (Nat.add_comm _ _)).trans (v1_apply x1 b _ j))

/-! ## The four scores of a batch -/

theorem v33_apply (x0 x1 : Arr) (b : Fin 16) :
    val_main_v33 (F := Ideal) x0 x1 (ix1 b) = colRows (plane x0 b) (plane x1 b) := by
  unfold val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14
  refine (rowScoreH_apply (val_main_v4 (F := Ideal) x0) (val_main_v10 (F := Ideal) x1) (val_main_cst_1 (F := Ideal)) (val_main_cst_3 (F := Ideal))
    (val_main_cst_5 (F := Ideal)) (val_main_cst_2 (F := Ideal)) (val_main_cst_4 (F := Ideal)) (val_main_cst_6 (F := Ideal)) eps c256
    Ideal.ofBits_zero_f32 Ideal.ofBits_zero_f32 Ideal.ofBits_zero_f32 (by rfl) (by rfl) (by rfl) b).trans ?_
  rw [v4_mat, v10_mat]; rfl

theorem v53_apply (x0 x1 : Arr) (b : Fin 16) :
    val_main_v53 (F := Ideal) x0 x1 (ix1 b) = colCols (plane x0 b) (plane x1 b) := by
  unfold val_main_v53 val_main_v52 val_main_v51 val_main_v50 val_main_v49 val_main_v48 val_main_v47 val_main_v46 val_main_v45 val_main_v44 val_main_v43 val_main_v42 val_main_v41 val_main_v40 val_main_v39 val_main_v38 val_main_v37 val_main_v36 val_main_v35 val_main_v34
  refine (colScoreH_apply (val_main_v4 (F := Ideal) x0) (val_main_v10 (F := Ideal) x1) (val_main_cst_7 (F := Ideal)) (val_main_cst_9 (F := Ideal))
    (val_main_cst_11 (F := Ideal)) (val_main_cst_8 (F := Ideal)) (val_main_cst_10 (F := Ideal)) (val_main_cst_12 (F := Ideal)) eps c255
    Ideal.ofBits_zero_f32 Ideal.ofBits_zero_f32 Ideal.ofBits_zero_f32 (by rfl) (by rfl) (by rfl) b).trans ?_
  rw [v4_mat, v10_mat]; rfl

theorem v79_apply (x0 x1 : Arr) (b : Fin 16) :
    val_main_v79 (F := Ideal) x0 x1 (ix1 b) = rowRows (plane x0 b) (plane x1 b) := by
  unfold val_main_v79 val_main_v78 val_main_v77 val_main_v76 val_main_v75 val_main_v74 val_main_v73 val_main_v72 val_main_v71 val_main_v70 val_main_v69 val_main_v68 val_main_v67 val_main_v66 val_main_v65 val_main_v64 val_main_v63 val_main_v62 val_main_v61 val_main_v60
  refine (rowScoreH_apply (val_main_v7 (F := Ideal) x0) (val_main_v13 (F := Ideal) x1) (val_main_cst_17 (F := Ideal)) (val_main_cst_19 (F := Ideal))
    (val_main_cst_21 (F := Ideal)) (val_main_cst_18 (F := Ideal)) (val_main_cst_20 (F := Ideal)) (val_main_cst_22 (F := Ideal)) eps c255
    Ideal.ofBits_zero_f32 Ideal.ofBits_zero_f32 Ideal.ofBits_zero_f32 (by rfl) (by rfl) (by rfl) b).trans ?_
  rw [v7_mat, v13_mat]; rfl

theorem v99_apply (x0 x1 : Arr) (b : Fin 16) :
    val_main_v99 (F := Ideal) x0 x1 (ix1 b) = rowCols (plane x0 b) (plane x1 b) := by
  unfold val_main_v99 val_main_v98 val_main_v97 val_main_v96 val_main_v95 val_main_v94 val_main_v93 val_main_v92 val_main_v91 val_main_v90 val_main_v89 val_main_v88 val_main_v87 val_main_v86 val_main_v85 val_main_v84 val_main_v83 val_main_v82 val_main_v81 val_main_v80
  refine (colScoreH_apply (val_main_v7 (F := Ideal) x0) (val_main_v13 (F := Ideal) x1) (val_main_cst_23 (F := Ideal)) (val_main_cst_25 (F := Ideal))
    (val_main_cst_27 (F := Ideal)) (val_main_cst_24 (F := Ideal)) (val_main_cst_26 (F := Ideal)) (val_main_cst_28 (F := Ideal)) eps c256
    Ideal.ofBits_zero_f32 Ideal.ofBits_zero_f32 Ideal.ofBits_zero_f32 (by rfl) (by rfl) (by rfl) b).trans ?_
  rw [v7_mat, v13_mat]; rfl

/-! ## The result -/

theorem result_eq (x0 x1 : Arr) (j : S_.Idx) : val_main_v106 (F := Ideal) x0 x1 j = loss x0 x1 := by
  have m1 := meanH_apply (val_main_v33 (F := Ideal) x0 x1) (val_main_cst_13 (F := Ideal)) (val_main_cst_14 (F := Ideal)) c16 (h := reducesTo_S16_S_d0) (u := h_S_) Ideal.ofBits_zero_f32 (by rfl) j
  have m2 := meanH_apply (val_main_v53 (F := Ideal) x0 x1) (val_main_cst_15 (F := Ideal)) (val_main_cst_16 (F := Ideal)) c16 (h := reducesTo_S16_S_d0) (u := h_S_) Ideal.ofBits_zero_f32 (by rfl) j
  have m3 := meanH_apply (val_main_v79 (F := Ideal) x0 x1) (val_main_cst_29 (F := Ideal)) (val_main_cst_30 (F := Ideal)) c16 (h := reducesTo_S16_S_d0) (u := h_S_) Ideal.ofBits_zero_f32 (by rfl) j
  have m4 := meanH_apply (val_main_v99 (F := Ideal) x0 x1) (val_main_cst_31 (F := Ideal)) (val_main_cst_32 (F := Ideal)) c16 (h := reducesTo_S16_S_d0) (u := h_S_) Ideal.ofBits_zero_f32 (by rfl) j
  refine (congrArg₂ (· + ·) (congrArg₂ (· - ·) (congrArg Neg.neg m1) m2) (congrArg₂ (· - ·) (congrArg Neg.neg m3) m4)).trans ?_
  unfold loss mean16
  simp only [v33_apply, v53_apply, v79_apply, v99_apply]
  exact (sub_sub_eq_add _ _ _).symm

end Cert.RefSide

end
-- ==== Proof.lean ====
/- Two programs compute one loss of two inputs, each 16 batches of 68 channel planes of 256 × 256 entries: per batch the
   channel planes are summed; from the summed planes P and G the differences of neighbouring columns and of neighbouring
   rows are taken; each pair of difference matrices is scaled to unit rows, and to unit columns (every length floored by a
   small constant), multiplied entry by entry and summed; the four sums, divided by their row or column counts, are averaged
   over the batches and subtracted from zero.

   The first program walks a grid of 16 × 4 points: a batch's four points each add the channel sum of 17 channels to two
   accumulator planes, and the fourth computes the batch's four numbers from the planes and leaves them in one row of an
   output tile; host lines then average and subtract. The second program is the same arithmetic written on whole arrays.
   Over the extended reals the two differ only in the grouping and the order of finite sums (68 channels as 4 blocks of
   17; a sum over two axes taken axis by axis or at once) and in subtracting two means in turn against adding their negated
   sum: + is commutative and associative there, infinite summands included, so the results agree for every input and the
   finiteness of the inputs is never used. Spec.lean states the common value; KernelRun.lean reads the first program's run
   against it, RefSide.lean the second's. -/
import proofs.«138720_j10213432230328_2_alg».proof.Defs
import proofs.«138720_j10213432230328_2_alg».proof.Proof.Gen.Kernel
import proofs.«138720_j10213432230328_2_alg».proof.Proof.Gen.Kernel.Skeleton
import proofs.«138720_j10213432230328_2_alg».proof.Proof.Gen.Kernel.Launch
import proofs.«138720_j10213432230328_2_alg».proof.Proof.Gen.Kernel.Points
import proofs.«138720_j10213432230328_2_alg».proof.Proof.Gen.Kernel.Frame
import proofs.«138720_j10213432230328_2_alg».proof.Proof.Gen.KernelIdeal
import proofs.«138720_j10213432230328_2_alg».proof.Proof.Gen.KernelIdeal.Skeleton
import proofs.«138720_j10213432230328_2_alg».proof.Proof.Gen.KernelIdeal.Launch
import proofs.«138720_j10213432230328_2_alg».proof.Proof.Gen.KernelIdeal.Points
import proofs.«138720_j10213432230328_2_alg».proof.Proof.Gen.KernelIdeal.Frame
import proofs.«138720_j10213432230328_2_alg».proof.Proof.Gen.ReferenceIdeal
import proofs.«138720_j10213432230328_2_alg».proof.Proof.Gen.ReferenceIdeal.Run
import proofs.«138720_j10213432230328_2_alg».proof.Proof.Gen.ReferenceIdeal.Read
import proofs.«138720_j10213432230328_2_alg».proof.Proof.Gen.Pre_finite_inputs
import proofs.«138720_j10213432230328_2_alg».proof.Proof.KernelRun
import proofs.«138720_j10213432230328_2_alg».proof.Proof.RefSide
import Idealize.ShloMosaic.Adequacy
import Idealize.ShloMosaic.Init

noncomputable section

namespace Cert.Proof

open Idealize.ShloMosaic Idealize.ShloMosaic.TcCoe Idealize.SL.Sem

/-- Each program terminates without fault and leaves its inputs as they were. -/
theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Over the extended reals both programs end at the loss of their (equal) inputs. -/
theorem algebraic : Cert.algebraic_KernelIdeal_ReferenceIdeal := by
  intro m ρ m' ρ' _ hagree
  refine ⟨fun c => (fun _ => Cert.Spec.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) : Cert.KernelIdeal.S_.Idx → EReal),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v106_eq, (hagree c).1, (hagree c).2]
  exact funext fun j => Cert.RefSide.result_eq _ _ j

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
